-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x64 : Shape := ⟨2, ![65536, 64]⟩
abbrev S576x32 : Shape := ⟨2, ![576, 32]⟩
abbrev S32 : Shape := ⟨1, ![32]⟩
abbrev S32x1024 : Shape := ⟨2, ![32, 1024]⟩
abbrev S1024 : Shape := ⟨1, ![1024]⟩
abbrev S832x1 : Shape := ⟨2, ![832, 1]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S576x32 : S_.BroadcastsInDim S576x32 (![] : Fin 0 → Fin S576x32.rank)
  reducesTo_S576x32_S_d0_1 : S576x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S1024 : S_.BroadcastsInDim S1024 (![] : Fin 0 → Fin S1024.rank)
  reducesTo_S1024_S_d0 : S1024.ReducesTo [0] S_
  bcast_S_S832x1 : S_.BroadcastsInDim S832x1 (![] : Fin 0 → Fin S832x1.rank)
  reducesTo_S832x1_S_d0_1 : S832x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024 .f32) (main_arg8 : FVec F S832x1 .f32) (main_arg9 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S832x1 .f32 := Host.absf main_arg8
  let main_cst_14 : FVec F S_ .f32 := constant S_ .f32 0x7F800000#32
  let main_v40 : FVec F S832x1 .f32 := broadcastInDim S832x1 ![] bcast_S_S832x1 main_cst_14
  let main_v41 : IVec S832x1 1 := cmpf .olt main_v39 main_v40
  let main_c_15 : IVec S_ 1 := constantI S_ 1 1#1
  let main_v42 : IVec S_ 1 := (fun x v => Host.reduce IntOp.andi x v reducesTo_S832x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S576x32 .f32) (main_arg5 : FVec F S32 .f32) (main_arg6 : FVec F S32x1024 .f32) (main_arg7 : FVec F S1024 .f32) (main_arg8 : FVec F S832x1 .f32) (main_arg9 : FVec F S1 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S576x32 .f32 := Host.absf main_arg4
  let main_cst_6 : FVec F S_ .f32 := constant S_ .f32 0x7F800000#32
  let main_v20 : FVec F S576x32 .f32 := broadcastInDim S576x32 ![] bcast_S_S576x32 main_cst_6
  let main_v21 : IVec S576x32 1 := cmpf .olt main_v19 main_v20
  let main_c_7 : IVec S_ 1 := constantI S_ 1 1#1
  let main_v22 : IVec S_ 1 := (fun x v => Host.reduce IntOp.andi x v reducesTo_S576x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x256 .f32) (main_arg1 : FVec F S65536x256 .f32) (main_arg2 : FVec F S65536x64 .f32) (main_arg3 : FVec F S65536x256 .f32) (main_arg4 : FVec F S576x32 .f32) (main_arg5 : FVec F S32 .f32) (main_arg6 : FVec F S32x1024 .f32) (main_arg7 : FVec F S1024 .f32) (main_arg8 : FVec F S832x1 .f32) (main_arg9 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_v13 main_v16
-- ==== Kernel.lean ====
abbrev S65536x256 : Shape := ⟨2, ![65536, 256]⟩
abbrev S65536x64 : Shape := ⟨2, ![65536, 64]⟩
abbrev S576x32 : Shape := ⟨2, ![576, 32]⟩
abbrev S32 : Shape := ⟨1, ![32]⟩
abbrev S32x1024 : Shape := ⟨2, ![32, 1024]⟩
abbrev S1024 : Shape := ⟨1, ![1024]⟩
abbrev S832x1 : Shape := ⟨2, ![832, 1]⟩
abbrev S1 : Shape := ⟨1, ![1]⟩
abbrev S1x32 : Shape := ⟨2, ![1, 32]⟩
abbrev S1x1024 : Shape := ⟨2, ![1, 1024]⟩
abbrev S1x1 : Shape := ⟨2, ![1, 1]⟩
abbrev S256x32 : Shape := ⟨2, ![256, 32]⟩
abbrev S64x32 : Shape := ⟨2, ![64, 32]⟩
abbrev S256x1 : Shape := ⟨2, ![256, 1]⟩
abbrev S1x256 : Shape := ⟨2, ![1, 256]⟩
abbrev S64x1 : Shape := ⟨2, ![64, 1]⟩
abbrev S1x64 : Shape := ⟨2, ![1, 64]⟩
abbrev S65536x1 : Shape := ⟨2, ![65536, 1]⟩
abbrev S2048x256 : Shape := ⟨2, ![2048, 256]⟩
abbrev S2048x64 : Shape := ⟨2, ![2048, 64]⟩
abbrev S2048x1 : Shape := ⟨2, ![2048, 1]⟩
abbrev S2048x32 : Shape := ⟨2, ![2048, 32]⟩
abbrev S2048x1024 : Shape := ⟨2, ![2048, 1024]⟩
abbrev S2048 : Shape := ⟨1, ![2048]⟩

abbrev nBuf : Space → Nat
  | .hbm => 27
  | .vmem => 25
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x64, .f32⟩
  | .hbm, ⟨3, _⟩ => ⟨S65536x256, .f32⟩
  | .hbm, ⟨4, _⟩ => ⟨S576x32, .f32⟩
  | .hbm, ⟨5, _⟩ => ⟨S32, .f32⟩
  | .hbm, ⟨6, _⟩ => ⟨S32x1024, .f32⟩
  | .hbm, ⟨7, _⟩ => ⟨S1024, .f32⟩
  | .hbm, ⟨8, _⟩ => ⟨S832x1, .f32⟩
  | .hbm, ⟨9, _⟩ => ⟨S1, .f32⟩
  | .hbm, ⟨10, _⟩ => ⟨S1x32, .f32⟩
  | .hbm, ⟨11, _⟩ => ⟨S1x1024, .f32⟩
  | .hbm, ⟨12, _⟩ => ⟨S1x1, .f32⟩
  | .hbm, ⟨13, _⟩ => ⟨S256x32, .f32⟩
  | .hbm, ⟨14, _⟩ => ⟨S64x32, .f32⟩
  | .hbm, ⟨15, _⟩ => ⟨S256x32, .f32⟩
  | .hbm, ⟨16, _⟩ => ⟨S256x1, .f32⟩
  | .hbm, ⟨17, _⟩ => ⟨S1x256, .f32⟩
  | .hbm, ⟨18, _⟩ => ⟨S64x1, .f32⟩
  | .hbm, ⟨19, _⟩ => ⟨S1x64, .f32⟩
  | .hbm, ⟨20, _⟩ => ⟨S256x1, .f32⟩
  | .hbm, ⟨21, _⟩ => ⟨S1x256, .f32⟩
  | .hbm, ⟨22, _⟩ => ⟨S256x1, .f32⟩
  | .hbm, ⟨23, _⟩ => ⟨S1x256, .f32⟩
  | .hbm, ⟨24, _⟩ => ⟨S65536x256, .f32⟩
  | .hbm, ⟨25, _⟩ => ⟨S65536x256, .f32⟩
  | .hbm, ⟨26, _⟩ => ⟨S65536x1, .f32⟩
  | .local _ .vmem, ⟨0, _⟩ => ⟨S2048x256, .f32⟩
  | .local _ .vmem, ⟨1, _⟩ => ⟨S2048x256, .f32⟩
  | .local _ .vmem, ⟨2, _⟩ => ⟨S2048x64, .f32⟩
  | .local _ .vmem, ⟨3, _⟩ => ⟨S2048x64, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x32, .f32⟩
  | .local _ .vmem, ⟨9, _⟩ => ⟨S64x32, .f32⟩
  | .local _ .vmem, ⟨10, _⟩ => ⟨S256x32, .f32⟩
  | .local _ .vmem, ⟨11, _⟩ => ⟨S1x32, .f32⟩
  | .local _ .vmem, ⟨12, _⟩ => ⟨S32x1024, .f32⟩
  | .local _ .vmem, ⟨13, _⟩ => ⟨S1x1024, .f32⟩
  | .local _ .vmem, ⟨14, _⟩ => ⟨S1x256, .f32⟩
  | .local _ .vmem, ⟨15, _⟩ => ⟨S1x64, .f32⟩
  | .local _ .vmem, ⟨16, _⟩ => ⟨S1x256, .f32⟩
  | .local _ .vmem, ⟨17, _⟩ => ⟨S1x256, .f32⟩
  | .local _ .vmem, ⟨18, _⟩ => ⟨S1x1, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x1, .f32⟩
  | .local _ .vmem, ⟨24, _⟩ => ⟨S2048x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S32_S1x32 : S32.ShapeCasts S1x32
  shapeCasts_S1024_S1x1024 : S1024.ShapeCasts S1x1024
  shapeCasts_S1_S1x1 : S1.ShapeCasts S1x1
  slices_S576x32_S256x32_0_0 : S576x32.Slices ![0, 0] S256x32
  slices_S576x32_S64x32_256_0 : S576x32.Slices ![256, 0] S64x32
  slices_S576x32_S256x32_320_0 : S576x32.Slices ![320, 0] S256x32
  slices_S832x1_S256x1_0_0 : S832x1.Slices ![0, 0] S256x1
  shapeCasts_S256x1_S1x256 : S256x1.ShapeCasts S1x256
  slices_S832x1_S64x1_256_0 : S832x1.Slices ![256, 0] S64x1
  shapeCasts_S64x1_S1x64 : S64x1.ShapeCasts S1x64
  slices_S832x1_S256x1_320_0 : S832x1.Slices ![320, 0] S256x1
  slices_S832x1_S256x1_576_0 : S832x1.Slices ![576, 0] S256x1
  inb_S2048x256_S2048x256_0_0 : ∀ a, (![0, 0] : Fin 2 → Nat) a + S2048x256.size a ≤ S2048x256.size a
  h_S2048x256 : 0 < S2048x256.numel
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1024_S32x1024_0_0 : ∀ a, (![0, 0] : Fin 2 → Nat) a + S32x1024.size a ≤ S32x1024.size a
  h_S32x1024 : 0 < S32x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x256_S256x32_S2048x32_1_0_0_1_n_n_wf : DotDims.WF S2048x256 S256x32 S2048x32 [1] [0] [0] [1] [] []
  dot_S2048x64_S64x32_S2048x32_1_0_0_1_n_n_wf : DotDims.WF S2048x64 S64x32 S2048x32 [1] [0] [0] [1] [] []
  dot_S2048x32_S32x1024_S2048x1024_1_0_0_1_n_n_wf : DotDims.WF S2048x32 S32x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S65536x64.size a
  hwx0_1 : ∀ i : grid0.Coords, EltTy.bits .f32 = 32 ∨ (Rect.block (s := S65536x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .f32 = 32 ∨ (Rect.block (s := S32x1024) S32x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x256.size a ≤ S65536x256.size a
  hwx0_15 : ∀ i : grid0.Coords, EltTy.bits .f32 = 32 ∨ (Rect.block (s := S65536x256) S2048x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x256.size a ≤ S65536x256.size a
  hwx0_16 : ∀ i : grid0.Coords, EltTy.bits .f32 = 32 ∨ (Rect.block (s := S65536x256) S2048x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x1.size a ≤ S65536x1.size a
  hwx0_17 : ∀ i : grid0.Coords, EltTy.bits .f32 = 32 ∨ (Rect.block (s := S65536x1) S2048x1.size (cc0_transform_17 i) (hinb0_17 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf

abbrev win0_0 : Pipeline.Window sig grid0 :=
  Pipeline.Window.ofSpec (Memref.whole main_arg3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S32x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v2) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S2048x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S2048x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v14_2) S2048x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x64 : Shape := ⟨2, ![65536, 64]⟩
abbrev S576x32 : Shape := ⟨2, ![576, 32]⟩
abbrev S32 : Shape := ⟨1, ![32]⟩
abbrev S32x1024 : Shape := ⟨2, ![32, 1024]⟩
abbrev S1024 : Shape := ⟨1, ![1024]⟩
abbrev S832x1 : Shape := ⟨2, ![832, 1]⟩
abbrev S1 : Shape := ⟨1, ![1]⟩
abbrev S65536x576 : Shape := ⟨2, ![65536, 576]⟩
abbrev S65536x32 : Shape := ⟨2, ![65536, 32]⟩
abbrev S1x32 : Shape := ⟨2, ![1, 32]⟩
abbrev S65536x1024 : Shape := ⟨2, ![65536, 1024]⟩
abbrev S1x1024 : Shape := ⟨2, ![1, 1024]⟩
abbrev S_ : Shape := ⟨0, ![]⟩
abbrev S65536x832 : Shape := ⟨2, ![65536, 832]⟩
abbrev S65536x1 : Shape := ⟨2, ![65536, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x64, .f32⟩
  | .hbm, ⟨3, _⟩ => ⟨S65536x256, .f32⟩
  | .hbm, ⟨4, _⟩ => ⟨S576x32, .f32⟩
  | .hbm, ⟨5, _⟩ => ⟨S32, .f32⟩
  | .hbm, ⟨6, _⟩ => ⟨S32x1024, .f32⟩
  | .hbm, ⟨7, _⟩ => ⟨S1024, .f32⟩
  | .hbm, ⟨8, _⟩ => ⟨S832x1, .f32⟩
  | .hbm, ⟨9, _⟩ => ⟨S1, .f32⟩
  | .hbm, ⟨10, _⟩ => ⟨S65536x576, .f32⟩
  | .hbm, ⟨11, _⟩ => ⟨S65536x32, .f32⟩
  | .hbm, ⟨12, _⟩ => ⟨S1x32, .f32⟩
  | .hbm, ⟨13, _⟩ => ⟨S65536x32, .f32⟩
  | .hbm, ⟨14, _⟩ => ⟨S65536x32, .f32⟩
  | .hbm, ⟨15, _⟩ => ⟨S65536x32, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x832, .f32⟩
  | .hbm, ⟨55, _⟩ => ⟨S65536x1, .f32⟩
  | .hbm, ⟨56, _⟩ => ⟨S1x1, .f32⟩
  | .hbm, ⟨57, _⟩ => ⟨S65536x1, .f32⟩
  | .hbm, ⟨58, _⟩ => ⟨S65536x1, .f32⟩
  | .hbm, ⟨59, _⟩ => ⟨S65536x1, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  concatenates_S65536x256_S65536x64_S65536x256_S65536x576_d1 : Shape.Concatenates [S65536x256, S65536x64, S65536x256] S65536x576 1
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  concatenates_S65536x576_S65536x256_S65536x832_d1 : Shape.Concatenates [S65536x576, S65536x256] S65536x832 1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x576_S576x32_S65536x32_1_0_0_1_n_n_wf : DotDims.WF S65536x576 S576x32 S65536x32 [1] [0] [0] [1] [] []
  dot_S65536x32_S32x1024_S65536x1024_1_0_0_1_n_n_wf : DotDims.WF S65536x32 S32x1024 S65536x1024 [1] [0] [0] [1] [] []
  dot_S65536x832_S832x1_S65536x1_1_0_0_1_n_n_wf : DotDims.WF S65536x832 S832x1 S65536x1 [1] [0] [0] [1] [] []

variable [Facts₀]

def dot_S65536x576_S576x32_S65536x32_1_0_0_1_n_n : DotDims S65536x576 S576x32 S65536x32 where
  lhsContracting := [1]
  rhsContracting := [0]
  lhsNonContracting := [0]
  rhsNonContracting := [1]
  lhsBatch := []
  rhsBatch := []
  wf := dot_S65536x576_S576x32_S65536x32_1_0_0_1_n_n_wf
def dot_S65536x32_S32x1024_S65536x1024_1_0_0_1_n_n : DotDims S65536x32 S32x1024 S65536x1024 where
  lhsContracting := [1]
  rhsContracting := [0]
  lhsNonContracting := [0]
  rhsNonContracting := [1]
  lhsBatch := []
  rhsBatch := []
  wf := dot_S65536x32_S32x1024_S65536x1024_1_0_0_1_n_n_wf
def dot_S65536x832_S832x1_S65536x1_1_0_0_1_n_n : DotDims S65536x832 S832x1 S65536x1 where
  lhsContracting := [1]
  rhsContracting := [0]
  lhsNonContracting := [0]
  rhsNonContracting := [1]
  lhsBatch := []
  rhsBatch := []
  wf := dot_S65536x832_S832x1_S65536x1_1_0_0_1_n_n_wf

class Facts : Prop extends Facts₀ where

variable [Facts]
-- ==== Proof.CellSpec.lean ====
/-
  The recurrent cell, one batch row at a time, on the extended reals.

  A row of the batch is a row `d` of the dynamics (256 entries), a row `a` of the action (64), a row `h` of the previous
  hidden state (256) and a row `p` of the previous cell state (256). The first layer's 576 weight rows are met in three
  groups — 256 for `d`, 64 for `a`, 256 for `h` — so its pre-activation at unit `k` is the three partial dot products added
  in that order, plus the bias; `hidden` is its hyperbolic tangent. The second layer gives 1024 gate pre-activations
  (`gate`), read in four groups of 256: input gate at `q`, forget gate at `256 + q`, candidate at `512 + q`, output gate at
  `768 + q`. The new cell state is `σ(forget) · p + σ(input) · tanh(candidate)` (`cellC`), the new hidden state
  `σ(output) · tanh(new cell)` (`cellH`), with `σ x = 1 / (1 + e⁻ˣ)`. The reward is the hyperbolic tangent of four partial
  dot products — of `d`, `a`, `h` and the new hidden row with their groups of the 832 reward weights — added in that
  order, plus the bias (`reward`).

  `outH`, `outC`, `outR` are the three results of one row as functions of the row's data and of the weights, the weights
  given group by group. `arrH`, `arrC`, `arrR` are the three result ARRAYS as functions of the ten argument arrays: row `r`
  of each is the row function at row `r` of the data arrays, the weight groups read off `W1` and `Wr` at their row offsets
  (0, 256, 320 and 0, 256, 320, 576).
-/
import Idealize.ShloMosaic.PureOps.Ideal
import Idealize.ShloMosaic.Lib.ValueIdx

noncomputable section

namespace Cert.CellSpec

open Idealize.ShloMosaic Idealize.ShloMosaic.ValueIdx

/-- The first layer at unit `k`: `tanh (((d · wd + a · wa) + h · wh) + b1)`. -/
def hidden (d : Fin 256 → EReal) (a : Fin 64 → EReal) (h : Fin 256 → EReal)
    (wd : Fin 256 → Fin 32 → EReal) (wa : Fin 64 → Fin 32 → EReal) (wh : Fin 256 → Fin 32 → EReal)
    (b1 : Fin 32 → EReal) (k : Fin 32) : EReal :=
  Ideal.tanh ((((∑ x : Fin 256, d x * wd x k) + ∑ x : Fin 64, a x * wa x k) + ∑ x : Fin 256, h x * wh x k) + b1 k)

/-- The second layer at gate position `j`: `h1 · w2 + b2`. -/
def gate (h1 : Fin 32 → EReal) (w2 : Fin 32 → Fin 1024 → EReal) (b2 : Fin 1024 → EReal) (j : Fin 1024) : EReal :=
  (∑ k : Fin 32, h1 k * w2 k j) + b2 j

/-- The new cell state at `q` from the 1024 gate pre-activations and the previous cell row. -/
def cellC (g : Fin 1024 → EReal) (p : Fin 256 → EReal) (q : Fin 256) : EReal :=
  Ideal.logistic (g ⟨256 + q.val, by have := q.isLt; omega⟩) * p q
    + Ideal.logistic (g ⟨q.val, by have := q.isLt; omega⟩) * Ideal.tanh (g ⟨512 + q.val, by have := q.isLt; omega⟩)

/-- The new hidden state at `q`. -/
def cellH (g : Fin 1024 → EReal) (p : Fin 256 → EReal) (q : Fin 256) : EReal :=
  Ideal.logistic (g ⟨768 + q.val, by have := q.isLt; omega⟩) * Ideal.tanh (cellC g p q)

/-- The reward of a row: `tanh (((((d · wd + a · wa) + h · wh) + nh · wn)) + br)`. -/
def reward (d : Fin 256 → EReal) (a : Fin 64 → EReal) (h nh : Fin 256 → EReal)
    (wd : Fin 256 → EReal) (wa : Fin 64 → EReal) (wh wn : Fin 256 → EReal) (br : EReal) : EReal :=
  Ideal.tanh (((((∑ x : Fin 256, d x * wd x) + ∑ x : Fin 64, a x * wa x) + ∑ x : Fin 256, h x * wh x)
    + ∑ x : Fin 256, nh x * wn x) + br)

/-- The gate pre-activations of a row. -/
def gates (d : Fin 256 → EReal) (a : Fin 64 → EReal) (h : Fin 256 → EReal)
    (wd : Fin 256 → Fin 32 → EReal) (wa : Fin 64 → Fin 32 → EReal) (wh : Fin 256 → Fin 32 → EReal)
    (b1 : Fin 32 → EReal) (w2 : Fin 32 → Fin 1024 → EReal) (b2 : Fin 1024 → EReal) : Fin 1024 → EReal :=
  gate (hidden d a h wd wa wh b1) w2 b2

/-- The new hidden row. -/
def outH (d : Fin 256 → EReal) (a : Fin 64 → EReal) (h p : Fin 256 → EReal)
    (wd : Fin 256 → Fin 32 → EReal) (wa : Fin 64 → Fin 32 → EReal) (wh : Fin 256 → Fin 32 → EReal)
    (b1 : Fin 32 → EReal) (w2 : Fin 32 → Fin 1024 → EReal) (b2 : Fin 1024 → EReal) (q : Fin 256) : EReal :=
  cellH (gates d a h wd wa wh b1 w2 b2) p q

/-- The new cell row. -/
def outC (d : Fin 256 → EReal) (a : Fin 64 → EReal) (h p : Fin 256 → EReal)
    (wd : Fin 256 → Fin 32 → EReal) (wa : Fin 64 → Fin 32 → EReal) (wh : Fin 256 → Fin 32 → EReal)
    (b1 : Fin 32 → EReal) (w2 : Fin 32 → Fin 1024 → EReal) (b2 : Fin 1024 → EReal) (q : Fin 256) : EReal :=
  cellC (gates d a h wd wa wh b1 w2 b2) p q

/-- The row's reward. -/
def outR (d : Fin 256 → EReal) (a : Fin 64 → EReal) (h p : Fin 256 → EReal)
    (wd : Fin 256 → Fin 32 → EReal) (wa : Fin 64 → Fin 32 → EReal) (wh : Fin 256 → Fin 32 → EReal)
    (b1 : Fin 32 → EReal) (w2 : Fin 32 → Fin 1024 → EReal) (b2 : Fin 1024 → EReal)
    (rd : Fin 256 → EReal) (ra : Fin 64 → EReal) (rh rn : Fin 256 → EReal) (br : EReal) : EReal :=
  reward d a h (outH d a h p wd wa wh b1 w2 b2) rd ra rh rn br

/-- Row `r` of a two-axis array. -/
abbrev row {M N : ℕ} (X : (⟨2, ![M, N]⟩ : Shape).Idx → EReal) (r : Fin M) : Fin N → EReal := fun x => X (ix2 r x)

/-- `R` consecutive rows of a two-axis array from row `o`, as a matrix of `Fin` positions. -/
abbrev rowsFrom {M N : ℕ} (o R : ℕ) (hR : o + R ≤ M) (X : (⟨2, ![M, N]⟩ : Shape).Idx → EReal) : Fin R → Fin N → EReal :=
  fun x k => X (ix2 ⟨o + x.val, by have := x.isLt; omega⟩ k)

/-- `R` consecutive entries of a one-column array from row `o`. -/
abbrev colFrom {M : ℕ} (o R : ℕ) (hR : o + R ≤ M) (X : (⟨2, ![M, 1]⟩ : Shape).Idx → EReal) : Fin R → EReal :=
  fun x => X (ix2 ⟨o + x.val, by have := x.isLt; omega⟩ (0 : Fin 1))

section Arrays
variable (ph pc : (⟨2, ![65536, 256]⟩ : Shape).Idx → EReal) (act : (⟨2, ![65536, 64]⟩ : Shape).Idx → EReal)
  (dyn : (⟨2, ![65536, 256]⟩ : Shape).Idx → EReal) (W1 : (⟨2, ![576, 32]⟩ : Shape).Idx → EReal)
  (b1 : (⟨1, ![32]⟩ : Shape).Idx → EReal) (W2 : (⟨2, ![32, 1024]⟩ : Shape).Idx → EReal)
  (b2 : (⟨1, ![1024]⟩ : Shape).Idx → EReal) (Wr : (⟨2, ![832, 1]⟩ : Shape).Idx → EReal)
  (br : (⟨1, ![1]⟩ : Shape).Idx → EReal)

/-- The new hidden state array. -/
def arrH : (⟨2, ![65536, 256]⟩ : Shape).Idx → EReal := fun i =>
  outH (row dyn ⟨(i 0).val, idx2_lt0 i⟩) (row act ⟨(i 0).val, idx2_lt0 i⟩) (row ph ⟨(i 0).val, idx2_lt0 i⟩)
    (row pc ⟨(i 0).val, idx2_lt0 i⟩)
    (rowsFrom 0 256 (by omega) W1) (rowsFrom 256 64 (by omega) W1) (rowsFrom 320 256 (by omega) W1)
    (fun k => b1 (ix1 k)) (fun k j => W2 (ix2 k j)) (fun j => b2 (ix1 j)) ⟨(i 1).val, idx2_lt1 i⟩

/-- The new cell state array. -/
def arrC : (⟨2, ![65536, 256]⟩ : Shape).Idx → EReal := fun i =>
  outC (row dyn ⟨(i 0).val, idx2_lt0 i⟩) (row act ⟨(i 0).val, idx2_lt0 i⟩) (row ph ⟨(i 0).val, idx2_lt0 i⟩)
    (row pc ⟨(i 0).val, idx2_lt0 i⟩)
    (rowsFrom 0 256 (by omega) W1) (rowsFrom 256 64 (by omega) W1) (rowsFrom 320 256 (by omega) W1)
    (fun k => b1 (ix1 k)) (fun k j => W2 (ix2 k j)) (fun j => b2 (ix1 j)) ⟨(i 1).val, idx2_lt1 i⟩

/-- The reward array (one column). -/
def arrR : (⟨2, ![65536, 1]⟩ : Shape).Idx → EReal := fun i =>
  outR (row dyn ⟨(i 0).val, idx2_lt0 i⟩) (row act ⟨(i 0).val, idx2_lt0 i⟩) (row ph ⟨(i 0).val, idx2_lt0 i⟩)
    (row pc ⟨(i 0).val, idx2_lt0 i⟩)
    (rowsFrom 0 256 (by omega) W1) (rowsFrom 256 64 (by omega) W1) (rowsFrom 320 256 (by omega) W1)
    (fun k => b1 (ix1 k)) (fun k j => W2 (ix2 k j)) (fun j => b2 (ix1 j))
    (colFrom 0 256 (by omega) Wr) (colFrom 256 64 (by omega) Wr) (colFrom 320 256 (by omega) Wr)
    (colFrom 576 256 (by omega) Wr) (br (ix1 (0 : Fin 1)))

end Arrays

end Cert.CellSpec

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.CellBody.lean ====
/-
  The kernel body's arithmetic read at an entry, on the extended reals.

  The body's values are pure functions of the blocks it loads. Read at row `r` of a block, each of them depends on row
  `r` of the data blocks only: a matrix-unit product accumulated into zeros is a plain sum over the contracted position
  (a change of float format is the identity on the extended reals), adding a one-row block to every row reads that row at
  the entry's column, and a lane sum of a product with a broadcast row is a dot product with that row. Hence the 1024 gate
  pre-activations at `(r, j)` are `CellSpec.gates` of the row, and the three stored values at `(r, q)` are
  `CellSpec.outH`, `outC` and `outR` of the row.
-/
import proofs.«141736_j45457933860875_2_alg».proof.Proof.Gen.KernelIdeal.Skeleton
import proofs.«141736_j45457933860875_2_alg».proof.Proof.CellSpec
import proofs.«141736_j45457933860875_2_alg».proof.Proof.LibPlainDot
import proofs.«141736_j45457933860875_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.CellBody

open Idealize.ShloMosaic Idealize.ShloMosaic.ValueIdx Cert.KernelIdeal Cert.KernelIdeal.Gen Cert.CellSpec Cert.LibPlainDot

/-- A matrix-unit product into the zero splat, over dimension numbers that are the plain ones, at entry `(p, q)`: the
    sum over `k` of `l (p, k) * r (k, q)`. -/
theorem mm_apply {M K N : ℕ} {φ₁ φ₂ : FTy} (D : DotDims ⟨2, ![M, K]⟩ ⟨2, ![K, N]⟩ ⟨2, ![M, N]⟩)
    (hD : D = DotDims.plain M K N) (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ k : Fin K, l (ix2 p k) * r (ix2 k q) := by
  subst hD
  exact (congrFun (matmul_zero_plain none l r) (ix2 p q)).trans (rowsTimes_apply l r p q)

/-- The same with both operands through a change of float format and the right one through an identity cast first (how
    the body prepares a weight block): on the extended reals neither changes an entry. -/
theorem mmw_apply {M K N : ℕ} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32)
    (hc : (⟨2, ![K, N]⟩ : Shape).ShapeCasts ⟨2, ![K, N]⟩) (h1 h2 : FTy.bf16.bits < FTy.f32.bits) (p : Fin M) (q : Fin N) :
    matmul D none (truncf .bf16 X h1) (truncf .bf16 (shapeCast ⟨2, ![K, N]⟩ W hc) h2)
        (constant ⟨2, ![M, N]⟩ .f32 0x00000000#32) (ix2 p q)
      = ∑ k : Fin K, X (ix2 p k) * W (ix2 k q) := by
  rw [shapeCast_self]
  exact mm_apply D hD _ _ p q

/-- Adding a one-row block (through its identity cast and its broadcast over the rows) at entry `(p, q)`. -/
theorem rowAdd_apply {M N : ℕ} (A : FVec Ideal ⟨2, ![M, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (q : Fin N) :
    addf A (broadcastTo ⟨2, ![M, N]⟩ (shapeCast ⟨2, ![1, N]⟩ b hc) hb) (ix2 p q) = A (ix2 p q) + b (ix2 (0 : Fin 1) q) := by
  show A (ix2 p q) + broadcastTo ⟨2, ![M, N]⟩ (shapeCast ⟨2, ![1, N]⟩ b hc) hb (ix2 p q) = _
  rw [shapeCast_self, broadcastTo_1b_ab_apply]

/-- The gate pre-activations at `(r, j)`: the second layer of the first layer of row `r`. -/
theorem pay1_apply (P0 : FVec Ideal S2048x256 .f32) (P1 : FVec Ideal S2048x64 .f32) (P2 : FVec Ideal S2048x256 .f32)
    (P3 : FVec Ideal S256x32 .f32) (P4 : FVec Ideal S64x32 .f32) (P5 : FVec Ideal S256x32 .f32) (P6 : FVec Ideal S1x32 .f32)
    (P7 : FVec Ideal S32x1024 .f32) (P8 : FVec Ideal S1x1024 .f32) (r : Fin 2048) (j : Fin 1024) :
    k0_pay1 (F := Ideal) P0 P1 P2 P3 P4 P5 P6 P7 P8 (ix2 r j)
      = gates (row P0 r) (row P1 r) (row P2 r) (fun x k => P3 (ix2 x k)) (fun x k => P4 (ix2 x k))
          (fun x k => P5 (ix2 x k)) (fun k => P6 (ix2 (0 : Fin 1) k)) (fun k j => P7 (ix2 k j))
          (fun j => P8 (ix2 (0 : Fin 1) j)) j := by
  unfold k0_pay1
  refine (rowAdd_apply _ P8 _ _ r j).trans ?_
  refine congrArg (· + P8 (ix2 (0 : Fin 1) j)) ?_
  refine (mm_apply dot_S2048x32_S32x1024_S2048x1024_1_0_0_1_n_n rfl _ _ r j).trans ?_
  refine Finset.sum_congr rfl fun k _ => ?_
  refine congrArg (· * P7 (ix2 k j)) ?_
  show Ideal.tanh _ = Ideal.tanh _
  refine congrArg Ideal.tanh ?_
  refine (rowAdd_apply _ P6 _ _ r k).trans ?_
  refine congrArg (· + P6 (ix2 (0 : Fin 1) k)) ?_
  show (_ + _) + _ = (_ + _) + _
  refine congrArg₂ (· + ·) (congrArg₂ (· + ·) ?_ ?_) ?_
  · exact mmw_apply dot_S2048x256_S256x32_S2048x32_1_0_0_1_n_n rfl P0 P3 _ _ _ r k
  · exact mmw_apply dot_S2048x64_S64x32_S2048x32_1_0_0_1_n_n rfl P1 P4 _ _ _ r k
  · exact mmw_apply dot_S2048x256_S256x32_S2048x32_1_0_0_1_n_n rfl P2 P5 _ _ _ r k

/-- The input gates' quarter of the gate block is its first 256 columns. -/
theorem pay2_apply (P0 : FVec Ideal S2048x256 .f32) (P1 : FVec Ideal S2048x64 .f32) (P2 : FVec Ideal S2048x256 .f32)
    (P3 : FVec Ideal S256x32 .f32) (P4 : FVec Ideal S64x32 .f32) (P5 : FVec Ideal S256x32 .f32) (P6 : FVec Ideal S1x32 .f32)
    (P7 : FVec Ideal S32x1024 .f32) (P8 : FVec Ideal S1x1024 .f32) (r : Fin 2048) (q : Fin 256) :
    k0_pay2 (F := Ideal) P0 P1 P2 P3 P4 P5 P6 P7 P8 (ix2 r q)
      = k0_pay1 (F := Ideal) P0 P1 P2 P3 P4 P5 P6 P7 P8 (ix2 r ⟨q.val, by have := q.isLt; omega⟩) := by
  unfold k0_pay2
  exact slice2_axis1_apply 0 _ _ r q ⟨q.val, by have := q.isLt; omega⟩ (Nat.zero_add _).symm

/-- The new cell state at `(r, q)`, from any gate block `G` whose first quarter is `v34` at that entry. -/
theorem pay3_apply (v3 : FVec Ideal S2048x256 .f32) (G : FVec Ideal S2048x1024 .f32) (v34 : FVec Ideal S2048x256 .f32)
    (r : Fin 2048) (q : Fin 256) (h34 : v34 (ix2 r q) = G (ix2 r ⟨q.val, by have := q.isLt; omega⟩)) :
    k0_pay3 (F := Ideal) v3 G v34 (ix2 r q) = cellC (fun j => G (ix2 r j)) (row v3 r) q := by
  unfold k0_pay3
  show Ideal.logistic (extractStridedSlice S2048x256 ![0, 256] G _ (ix2 r q)) * v3 (ix2 r q)
      + Ideal.logistic (v34 (ix2 r q)) * Ideal.tanh (extractStridedSlice S2048x256 ![0, 512] G _ (ix2 r q)) = _
  rw [slice2_axis1_eq 256 G _ r q, slice2_axis1_eq 512 G _ r q, h34]
  rfl

/-- The new hidden state at `(r, q)`. -/
theorem pay4_apply (v3 : FVec Ideal S2048x256 .f32) (G : FVec Ideal S2048x1024 .f32) (v34 : FVec Ideal S2048x256 .f32)
    (r : Fin 2048) (q : Fin 256) (h34 : v34 (ix2 r q) = G (ix2 r ⟨q.val, by have := q.isLt; omega⟩)) :
    k0_pay4 (F := Ideal) v3 G v34 (ix2 r q) = cellH (fun j => G (ix2 r j)) (row v3 r) q := by
  unfold k0_pay4
  show Ideal.logistic (extractStridedSlice S2048x256 ![0, 768] G _ (ix2 r q)) * Ideal.tanh (k0_pay3 (F := Ideal) v3 G v34 (ix2 r q)) = _
  rw [slice2_axis1_eq 768 G _ r q, pay3_apply v3 G v34 r q h34]
  rfl

/-- A lane sum, kept as a column, of the product of a block with a one-row block broadcast over its rows: at row `r`
    the dot product of the block's row with that row. -/
theorem laneDot_apply {M N : ℕ} (X : FVec Ideal ⟨2, ![M, N]⟩ .f32) (w : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (hred : (⟨2, ![M, N]⟩ : Shape).Reduces [1] ⟨1, ![M]⟩) (hφ : FKind.Formats FTy.f32)
    (hacc : (0x00000000#32 : BitVec 32) = FKind.add.neutral .f32 hφ)
    (hsc : (⟨1, ![M]⟩ : Shape).ShapeCasts ⟨2, ![M, 1]⟩) (r : Fin M) :
    shapeCast ⟨2, ![M, 1]⟩ (multiReduction .add [1] ⟨1, ![M]⟩
        (mulf X (broadcastTo ⟨2, ![M, N]⟩ (shapeCast ⟨2, ![1, N]⟩ w hc) hb)) 0x00000000#32 hred hφ hacc) hsc (ix2 r (0 : Fin 1))
      = ∑ x : Fin N, X (ix2 r x) * w (ix2 (0 : Fin 1) x) := by
  rw [Cert.Columns.shapeCast_a_a1_apply]
  refine (Ideal.multiReduction_add_single _ 0x00000000#32 hred hφ hacc (ix1 r)).trans ?_
  show ∑ x : Fin N, (mulf X (broadcastTo ⟨2, ![M, N]⟩ (shapeCast ⟨2, ![1, N]⟩ w hc) hb)) (hred.lift (ix1 r) x)
      = ∑ x : Fin N, X (ix2 r x) * w (ix2 (0 : Fin 1) x)
  refine Finset.sum_congr rfl fun x _ => ?_
  have e : hred.lift (ix1 r) x = ix2 r x := funext fun c => Fin.ext (by
    match c with
    | ⟨0, _⟩ => rfl
    | ⟨1, _⟩ => rfl)
  rw [e]
  show X (ix2 r x) * broadcastTo ⟨2, ![M, N]⟩ (shapeCast ⟨2, ![1, N]⟩ w hc) hb (ix2 r x) = _
  rw [shapeCast_self, broadcastTo_1b_ab_apply]

/-- The reward at row `r`. -/
theorem pay5_apply (v0 : FVec Ideal S2048x256 .f32) (v1 : FVec Ideal S2048x64 .f32) (v2 v3 : FVec Ideal S2048x256 .f32)
    (G : FVec Ideal S2048x1024 .f32) (v34 : FVec Ideal S2048x256 .f32) (v47 : FVec Ideal S1x256 .f32)
    (v53 : FVec Ideal S1x64 .f32) (v60 v67 : FVec Ideal S1x256 .f32) (v74 : FVec Ideal S1x1 .f32) (r : Fin 2048)
    (h34 : ∀ q : Fin 256, v34 (ix2 r q) = G (ix2 r ⟨q.val, by have := q.isLt; omega⟩)) :
    k0_pay5 (F := Ideal) v0 v1 v2 v3 G v34 v47 v53 v60 v67 v74 (ix2 r (0 : Fin 1))
      = reward (row v0 r) (row v1 r) (row v2 r) (cellH (fun j => G (ix2 r j)) (row v3 r))
          (fun x => v47 (ix2 (0 : Fin 1) x)) (fun x => v53 (ix2 (0 : Fin 1) x)) (fun x => v60 (ix2 (0 : Fin 1) x))
          (fun x => v67 (ix2 (0 : Fin 1) x)) (v74 (ix2 (0 : Fin 1) (0 : Fin 1))) := by
  unfold k0_pay5
  show Ideal.tanh _ = Ideal.tanh _
  refine congrArg Ideal.tanh ?_
  refine (rowAdd_apply _ v74 _ _ r (0 : Fin 1)).trans ?_
  refine congrArg (· + v74 (ix2 (0 : Fin 1) (0 : Fin 1))) ?_
  show ((_ + _) + _) + _ = ((_ + _) + _) + _
  refine congrArg₂ (· + ·) (congrArg₂ (· + ·) (congrArg₂ (· + ·) ?_ ?_) ?_) ?_
  · exact laneDot_apply v0 v47 _ _ _ _ _ _ r
  · exact laneDot_apply v1 v53 _ _ _ _ _ _ r
  · exact laneDot_apply v2 v60 _ _ _ _ _ _ r
  · refine (laneDot_apply (k0_pay4 (F := Ideal) v3 G v34) v67 _ _ _ _ _ _ r).trans ?_
    refine Finset.sum_congr rfl fun x _ => ?_
    rw [pay4_apply v3 G v34 r x (h34 x)]

section Stored
variable (x0 : FVec Ideal S2048x256 .f32) (x1 : FVec Ideal S2048x64 .f32) (x2 x3 : FVec Ideal S2048x256 .f32)
  (x4 : FVec Ideal S256x32 .f32) (x5 : FVec Ideal S64x32 .f32) (x6 : FVec Ideal S256x32 .f32) (x7 : FVec Ideal S1x32 .f32)
  (x8 : FVec Ideal S32x1024 .f32) (x9 : FVec Ideal S1x1024 .f32) (x10 : FVec Ideal S1x256 .f32) (x11 : FVec Ideal S1x64 .f32)
  (x12 x13 : FVec Ideal S1x256 .f32) (x14 : FVec Ideal S1x1 .f32)

/-- Row `r` of the gate block is the row's gate pre-activations. -/
theorem gates_row (r : Fin 2048) :
    (fun j => k0_pay1 (F := Ideal) x0 x1 x2 x4 x5 x6 x7 x8 x9 (ix2 r j))
      = gates (row x0 r) (row x1 r) (row x2 r) (fun x k => x4 (ix2 x k)) (fun x k => x5 (ix2 x k))
          (fun x k => x6 (ix2 x k)) (fun k => x7 (ix2 (0 : Fin 1) k)) (fun k j => x8 (ix2 k j))
          (fun j => x9 (ix2 (0 : Fin 1) j)) :=
  funext fun j => pay1_apply x0 x1 x2 x4 x5 x6 x7 x8 x9 r j

/-- The value stored into the new-hidden block, at `(r, q)`. -/
theorem storedH (r : Fin 2048) (q : Fin 256) :
    k0_pay4 (F := Ideal) x3 (k0_pay1 x0 x1 x2 x4 x5 x6 x7 x8 x9) (k0_pay2 x0 x1 x2 x4 x5 x6 x7 x8 x9) (ix2 r q)
      = outH (row x0 r) (row x1 r) (row x2 r) (row x3 r) (fun x k => x4 (ix2 x k)) (fun x k => x5 (ix2 x k))
          (fun x k => x6 (ix2 x k)) (fun k => x7 (ix2 (0 : Fin 1) k)) (fun k j => x8 (ix2 k j))
          (fun j => x9 (ix2 (0 : Fin 1) j)) q := by
  rw [pay4_apply _ _ _ r q (pay2_apply x0 x1 x2 x4 x5 x6 x7 x8 x9 r q), gates_row]
  rfl

/-- The value stored into the new-cell block, at `(r, q)`. -/
theorem storedC (r : Fin 2048) (q : Fin 256) :
    k0_pay3 (F := Ideal) x3 (k0_pay1 x0 x1 x2 x4 x5 x6 x7 x8 x9) (k0_pay2 x0 x1 x2 x4 x5 x6 x7 x8 x9) (ix2 r q)
      = outC (row x0 r) (row x1 r) (row x2 r) (row x3 r) (fun x k => x4 (ix2 x k)) (fun x k => x5 (ix2 x k))
          (fun x k => x6 (ix2 x k)) (fun k => x7 (ix2 (0 : Fin 1) k)) (fun k j => x8 (ix2 k j))
          (fun j => x9 (ix2 (0 : Fin 1) j)) q := by
  rw [pay3_apply _ _ _ r q (pay2_apply x0 x1 x2 x4 x5 x6 x7 x8 x9 r q), gates_row]
  rfl

/-- The value stored into the reward block, at row `r`. -/
theorem storedR (r : Fin 2048) :
    k0_pay5 (F := Ideal) x0 x1 x2 x3 (k0_pay1 x0 x1 x2 x4 x5 x6 x7 x8 x9) (k0_pay2 x0 x1 x2 x4 x5 x6 x7 x8 x9)
        x10 x11 x12 x13 x14 (ix2 r (0 : Fin 1))
      = outR (row x0 r) (row x1 r) (row x2 r) (row x3 r) (fun x k => x4 (ix2 x k)) (fun x k => x5 (ix2 x k))
          (fun x k => x6 (ix2 x k)) (fun k => x7 (ix2 (0 : Fin 1) k)) (fun k j => x8 (ix2 k j))
          (fun j => x9 (ix2 (0 : Fin 1) j)) (fun x => x10 (ix2 (0 : Fin 1) x)) (fun x => x11 (ix2 (0 : Fin 1) x))
          (fun x => x12 (ix2 (0 : Fin 1) x)) (fun x => x13 (ix2 (0 : Fin 1) x)) (x14 (ix2 (0 : Fin 1) (0 : Fin 1))) := by
  rw [pay5_apply _ _ _ _ _ _ _ _ _ _ _ r (fun q => pay2_apply x0 x1 x2 x4 x5 x6 x7 x8 x9 r q), gates_row]
  rfl

end Stored

end Cert.CellBody

end
-- ==== Proof.CellRun.lean ====
/-
  From blocks to arrays: the kernel's three result arrays as functions of the argument arrays.

  The grid has 32 points; at point `t` the four data windows (dynamics, action, previous hidden, previous cell) hold rows
  `2048 t … 2048 t + 2047` of their arrays, the three result windows cover the same rows of theirs, and the eleven weight
  windows hold the whole of their arrays at every point. Those weight arrays are written before the region by slices and
  reshapes of `W1`, `b1`, `b2`, `Wr`, `br`: rows `0…255`, `256…319`, `320…575` of `W1`; rows `0…255`, `256…319`,
  `320…575`, `576…831` of the one-column `Wr`, each laid as a row; the three biases as one-row arrays.

  Since each stored value at row `r` of a block is the row function of row `r` of the data blocks (CellBody), what point
  `t` writes back is block `t` of `CellSpec.arrH`, `arrC`, `arrR` of the argument arrays. The 32 blocks tile the
  65536 rows (row `i` lies in block `i / 2048`), so each result array ends holding that function.
-/
import proofs.«141736_j45457933860875_2_alg».proof.Proof.Gen.KernelIdeal.Frame
import proofs.«141736_j45457933860875_2_alg».proof.Proof.CellBody
import Idealize.ShloMosaic.Lib.Pipeline.Value
import Idealize.ShloMosaic.Lib.StableHlo.Run
import Idealize.ShloMosaic.Lib.Tactic
import Idealize.ShloMosaic.Lib.ValueLayout

noncomputable section

namespace Cert.CellRun

open Idealize.ShloMosaic Idealize.ShloMosaic.TcCoe Idealize.SL.Sem Idealize.ShloMosaic.ValueIdx
open Idealize.ShloMosaic.Pipeline (Dat)
open Cert.KernelIdeal Cert.KernelIdeal.Gen Cert.CellSpec Cert.CellBody

variable (m : (ℓ : Loc nD τ sig) → Buf (Elt Ideal) ℓ) (ρ : Dev nD → PrngReg)

/-! ## The argument arrays of core `c`, as arrays of extended reals -/

abbrev aPh (c : Dev nD) : (⟨2, ![65536, 256]⟩ : Shape).Idx → EReal := m ((c : Thread nD τ).loc main_arg0)
abbrev aPc (c : Dev nD) : (⟨2, ![65536, 256]⟩ : Shape).Idx → EReal := m ((c : Thread nD τ).loc main_arg1)
abbrev aAct (c : Dev nD) : (⟨2, ![65536, 64]⟩ : Shape).Idx → EReal := m ((c : Thread nD τ).loc main_arg2)
abbrev aDyn (c : Dev nD) : (⟨2, ![65536, 256]⟩ : Shape).Idx → EReal := m ((c : Thread nD τ).loc main_arg3)
abbrev aW1 (c : Dev nD) : (⟨2, ![576, 32]⟩ : Shape).Idx → EReal := m ((c : Thread nD τ).loc main_arg4)
abbrev aB1 (c : Dev nD) : (⟨1, ![32]⟩ : Shape).Idx → EReal := m ((c : Thread nD τ).loc main_arg5)
abbrev aW2 (c : Dev nD) : (⟨2, ![32, 1024]⟩ : Shape).Idx → EReal := m ((c : Thread nD τ).loc main_arg6)
abbrev aB2 (c : Dev nD) : (⟨1, ![1024]⟩ : Shape).Idx → EReal := m ((c : Thread nD τ).loc main_arg7)
abbrev aWr (c : Dev nD) : (⟨2, ![832, 1]⟩ : Shape).Idx → EReal := m ((c : Thread nD τ).loc main_arg8)
abbrev aBr (c : Dev nD) : (⟨1, ![1]⟩ : Shape).Idx → EReal := m ((c : Thread nD τ).loc main_arg9)

/-- Row `r` of block `t` is row `2048 t + r` of the array. -/
abbrev rowAt (t : Fin cfg0.N) (r : Fin 2048) : Fin 65536 :=
  ⟨2048 * t.val + r.val, by have h := t.isLt; have hN : cfg0.N = 32 := N_0; have := r.isLt; omega⟩

/-! ## The arrays the host writes before the region, at an entry -/

theorem Vb1 (c : Dev nD) (k : Fin 32) : (V m c main_v0 : S1x32.Idx → EReal) (ix2 (0 : Fin 1) k) = aB1 m c (ix1 k) := by
  have e : (V m c main_v0 : S1x32.Idx → EReal) = shapeCast S1x32 (aB1 m c) shapeCasts_S32_S1x32 := by
    dsimp only [V, hostOps0]; after_results; rfl
  rw [e]; exact shapeCast_a_1a_apply _ _ 0 k

theorem Vb2 (c : Dev nD) (j : Fin 1024) : (V m c main_v1 : S1x1024.Idx → EReal) (ix2 (0 : Fin 1) j) = aB2 m c (ix1 j) := by
  have e : (V m c main_v1 : S1x1024.Idx → EReal) = shapeCast S1x1024 (aB2 m c) shapeCasts_S1024_S1x1024 := by
    dsimp only [V, hostOps0]; after_results; rfl
  rw [e]; exact shapeCast_a_1a_apply _ _ 0 j

theorem Vbr (c : Dev nD) : (V m c main_v2 : S1x1.Idx → EReal) (ix2 (0 : Fin 1) (0 : Fin 1)) = aBr m c (ix1 (0 : Fin 1)) := by
  have e : (V m c main_v2 : S1x1.Idx → EReal) = shapeCast S1x1 (aBr m c) shapeCasts_S1_S1x1 := by
    dsimp only [V, hostOps0]; after_results; rfl
  rw [e]; exact shapeCast_a_1a_apply _ _ 0 0

theorem Vw1d (c : Dev nD) (x : Fin 256) (k : Fin 32) :
    (V m c main_v3 : S256x32.Idx → EReal) (ix2 x k) = rowsFrom 0 256 (by omega) (aW1 m c) x k := by
  have e : (V m c main_v3 : S256x32.Idx → EReal) = extractStridedSlice S256x32 ![0, 0] (aW1 m c) slices_S576x32_S256x32_0_0 := by
    dsimp only [V, hostOps0]; after_results
  exact (congrFun e (ix2 x k)).trans (slice2_axis0_eq 0 _ _ x k)

theorem Vw1a (c : Dev nD) (x : Fin 64) (k : Fin 32) :
    (V m c main_v4 : S64x32.Idx → EReal) (ix2 x k) = rowsFrom 256 64 (by omega) (aW1 m c) x k := by
  have e : (V m c main_v4 : S64x32.Idx → EReal) = extractStridedSlice S64x32 ![256, 0] (aW1 m c) slices_S576x32_S64x32_256_0 := by
    dsimp only [V, hostOps0]; after_results
  exact (congrFun e (ix2 x k)).trans (slice2_axis0_eq 256 _ _ x k)

theorem Vw1h (c : Dev nD) (x : Fin 256) (k : Fin 32) :
    (V m c main_v5 : S256x32.Idx → EReal) (ix2 x k) = rowsFrom 320 256 (by omega) (aW1 m c) x k := by
  have e : (V m c main_v5 : S256x32.Idx → EReal) = extractStridedSlice S256x32 ![320, 0] (aW1 m c) slices_S576x32_S256x32_320_0 := by
    dsimp only [V, hostOps0]; after_results
  exact (congrFun e (ix2 x k)).trans (slice2_axis0_eq 320 _ _ x k)

theorem Vwrd (c : Dev nD) (x : Fin 256) :
    (V m c main_v7 : S1x256.Idx → EReal) (ix2 (0 : Fin 1) x) = colFrom 0 256 (by omega) (aWr m c) x := by
  have e : (V m c main_v7 : S1x256.Idx → EReal)
      = shapeCast S1x256 (extractStridedSlice S256x1 ![0, 0] (aWr m c) slices_S832x1_S256x1_0_0) shapeCasts_S256x1_S1x256 := by
    dsimp only [V, hostOps0]; after_results; rfl
  rw [e, Cert.Columns.shapeCast_a1_1a_apply]; exact slice2_axis0_eq 0 _ _ x (0 : Fin 1)

theorem Vwra (c : Dev nD) (x : Fin 64) :
    (V m c main_v9 : S1x64.Idx → EReal) (ix2 (0 : Fin 1) x) = colFrom 256 64 (by omega) (aWr m c) x := by
  have e : (V m c main_v9 : S1x64.Idx → EReal)
      = shapeCast S1x64 (extractStridedSlice S64x1 ![256, 0] (aWr m c) slices_S832x1_S64x1_256_0) shapeCasts_S64x1_S1x64 := by
    dsimp only [V, hostOps0]; after_results; rfl
  rw [e, Cert.Columns.shapeCast_a1_1a_apply]; exact slice2_axis0_eq 256 _ _ x (0 : Fin 1)

theorem Vwrh (c : Dev nD) (x : Fin 256) :
    (V m c main_v11 : S1x256.Idx → EReal) (ix2 (0 : Fin 1) x) = colFrom 320 256 (by omega) (aWr m c) x := by
  have e : (V m c main_v11 : S1x256.Idx → EReal)
      = shapeCast S1x256 (extractStridedSlice S256x1 ![320, 0] (aWr m c) slices_S832x1_S256x1_320_0) shapeCasts_S256x1_S1x256 := by
    dsimp only [V, hostOps0]; after_results; rfl
  rw [e, Cert.Columns.shapeCast_a1_1a_apply]; exact slice2_axis0_eq 320 _ _ x (0 : Fin 1)

theorem Vwrn (c : Dev nD) (x : Fin 256) :
    (V m c main_v13 : S1x256.Idx → EReal) (ix2 (0 : Fin 1) x) = colFrom 576 256 (by omega) (aWr m c) x := by
  have e : (V m c main_v13 : S1x256.Idx → EReal)
      = shapeCast S1x256 (extractStridedSlice S256x1 ![576, 0] (aWr m c) slices_S832x1_S256x1_576_0) shapeCasts_S256x1_S1x256 := by
    dsimp only [V, hostOps0]; after_results; rfl
  rw [e, Cert.Columns.shapeCast_a1_1a_apply]; exact slice2_axis0_eq 576 _ _ x (0 : Fin 1)

/-! ## The printed index maps, decided over the 32 points -/

/-- The data windows and the result windows are at block row `t`, block column 0. -/
theorem idx_moving : ∀ t : Fin cfg0.N, win0_0.index t = ![t.val, 0] ∧ win0_1.index t = ![t.val, 0]
    ∧ win0_2.index t = ![t.val, 0] ∧ win0_3.index t = ![t.val, 0] ∧ win0_15.index t = ![t.val, 0]
    ∧ win0_16.index t = ![t.val, 0] ∧ win0_17.index t = ![t.val, 0] :=
  (by decide +kernel : ∀ t : Fin grid0.N, _)

/-- The weight windows stay at block (0, 0). -/
theorem idx_fixed : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-! ## Each input window's block read at an entry -/

/-- Input window 0's block at point `t` is rows `2048 t … 2048 t + 2047` of its argument array. -/
theorem blk0 (c : Dev nD) (t : Fin cfg0.N) (r : Fin 2048) (x : Fin 256) :
    (iblk m c 0 t : FVec Ideal S2048x256 .f32) (ix2 r x) = aDyn m c (ix2 (rowAt t r) x) := by
  unfold iblk
  rw [View.read_apply]
  show V m c main_arg3 (((cfg0.win 0).blk t).view.emb (ix2 r x)) = _
  rw [V_main_arg3]
  refine congrArg (aDyn m c) (funext fun a => Fin.ext ?_)
  have e := (idx_moving t).1
  match a with
  | ⟨0, _⟩ => show win0_0.index t 0 * 2048 + 1 * r.val = 2048 * t.val + r.val; rw [e]; show t.val * 2048 + 1 * r.val = _; omega
  | ⟨1, _⟩ => show win0_0.index t 1 * 256 + 1 * x.val = x.val; rw [e]; show 0 * 256 + 1 * x.val = _; omega

/-- Input window 1's block at point `t` is rows `2048 t … 2048 t + 2047` of its argument array. -/
theorem blk1 (c : Dev nD) (t : Fin cfg0.N) (r : Fin 2048) (x : Fin 64) :
    (iblk m c 1 t : FVec Ideal S2048x64 .f32) (ix2 r x) = aAct m c (ix2 (rowAt t r) x) := by
  unfold iblk
  rw [View.read_apply]
  show V m c main_arg2 (((cfg0.win 1).blk t).view.emb (ix2 r x)) = _
  rw [V_main_arg2]
  refine congrArg (aAct m c) (funext fun a => Fin.ext ?_)
  have e := (idx_moving t).2.1
  match a with
  | ⟨0, _⟩ => show win0_1.index t 0 * 2048 + 1 * r.val = 2048 * t.val + r.val; rw [e]; show t.val * 2048 + 1 * r.val = _; omega
  | ⟨1, _⟩ => show win0_1.index t 1 * 64 + 1 * x.val = x.val; rw [e]; show 0 * 64 + 1 * x.val = _; omega

/-- Input window 2's block at point `t` is rows `2048 t … 2048 t + 2047` of its argument array. -/
theorem blk2 (c : Dev nD) (t : Fin cfg0.N) (r : Fin 2048) (x : Fin 256) :
    (iblk m c 2 t : FVec Ideal S2048x256 .f32) (ix2 r x) = aPh m c (ix2 (rowAt t r) x) := by
  unfold iblk
  rw [View.read_apply]
  show V m c main_arg0 (((cfg0.win 2).blk t).view.emb (ix2 r x)) = _
  rw [V_main_arg0]
  refine congrArg (aPh m c) (funext fun a => Fin.ext ?_)
  have e := (idx_moving t).2.2.1
  match a with
  | ⟨0, _⟩ => show win0_2.index t 0 * 2048 + 1 * r.val = 2048 * t.val + r.val; rw [e]; show t.val * 2048 + 1 * r.val = _; omega
  | ⟨1, _⟩ => show win0_2.index t 1 * 256 + 1 * x.val = x.val; rw [e]; show 0 * 256 + 1 * x.val = _; omega

/-- Input window 3's block at point `t` is rows `2048 t … 2048 t + 2047` of its argument array. -/
theorem blk3 (c : Dev nD) (t : Fin cfg0.N) (r : Fin 2048) (x : Fin 256) :
    (iblk m c 3 t : FVec Ideal S2048x256 .f32) (ix2 r x) = aPc m c (ix2 (rowAt t r) x) := by
  unfold iblk
  rw [View.read_apply]
  show V m c main_arg1 (((cfg0.win 3).blk t).view.emb (ix2 r x)) = _
  rw [V_main_arg1]
  refine congrArg (aPc m c) (funext fun a => Fin.ext ?_)
  have e := (idx_moving t).2.2.2.1
  match a with
  | ⟨0, _⟩ => show win0_3.index t 0 * 2048 + 1 * r.val = 2048 * t.val + r.val; rw [e]; show t.val * 2048 + 1 * r.val = _; omega
  | ⟨1, _⟩ => show win0_3.index t 1 * 256 + 1 * x.val = x.val; rw [e]; show 0 * 256 + 1 * x.val = _; omega

/-- Input window 4's block, at every point, is the whole of its array as the region finds it. -/
theorem blk4 (c : Dev nD) (t : Fin cfg0.N) (x : Fin 256) (k : Fin 32) :
    (iblk m c 4 t : FVec Ideal S256x32 .f32) (ix2 x k) = (V m c main_v3 : S256x32.Idx → EReal) (ix2 x k) := by
  unfold iblk
  rw [View.read_apply]
  show (V m c main_v3 : S256x32.Idx → EReal) (((cfg0.win 4).blk t).view.emb (ix2 x k)) = _
  refine congrArg (V m c main_v3 : S256x32.Idx → EReal) (funext fun a => Fin.ext ?_)
  have e := (idx_fixed t).1
  match a with
  | ⟨0, _⟩ => show win0_4.index t 0 * 256 + 1 * x.val = x.val; rw [e]; show 0 * 256 + 1 * x.val = _; omega
  | ⟨1, _⟩ => show win0_4.index t 1 * 32 + 1 * k.val = k.val; rw [e]; show 0 * 32 + 1 * k.val = _; omega

/-- Input window 5's block, at every point, is the whole of its array as the region finds it. -/
theorem blk5 (c : Dev nD) (t : Fin cfg0.N) (x : Fin 64) (k : Fin 32) :
    (iblk m c 5 t : FVec Ideal S64x32 .f32) (ix2 x k) = (V m c main_v4 : S64x32.Idx → EReal) (ix2 x k) := by
  unfold iblk
  rw [View.read_apply]
  show (V m c main_v4 : S64x32.Idx → EReal) (((cfg0.win 5).blk t).view.emb (ix2 x k)) = _
  refine congrArg (V m c main_v4 : S64x32.Idx → EReal) (funext fun a => Fin.ext ?_)
  have e := (idx_fixed t).2.1
  match a with
  | ⟨0, _⟩ => show win0_5.index t 0 * 64 + 1 * x.val = x.val; rw [e]; show 0 * 64 + 1 * x.val = _; omega
  | ⟨1, _⟩ => show win0_5.index t 1 * 32 + 1 * k.val = k.val; rw [e]; show 0 * 32 + 1 * k.val = _; omega

/-- Input window 6's block, at every point, is the whole of its array as the region finds it. -/
theorem blk6 (c : Dev nD) (t : Fin cfg0.N) (x : Fin 256) (k : Fin 32) :
    (iblk m c 6 t : FVec Ideal S256x32 .f32) (ix2 x k) = (V m c main_v5 : S256x32.Idx → EReal) (ix2 x k) := by
  unfold iblk
  rw [View.read_apply]
  show (V m c main_v5 : S256x32.Idx → EReal) (((cfg0.win 6).blk t).view.emb (ix2 x k)) = _
  refine congrArg (V m c main_v5 : S256x32.Idx → EReal) (funext fun a => Fin.ext ?_)
  have e := (idx_fixed t).2.2.1
  match a with
  | ⟨0, _⟩ => show win0_6.index t 0 * 256 + 1 * x.val = x.val; rw [e]; show 0 * 256 + 1 * x.val = _; omega
  | ⟨1, _⟩ => show win0_6.index t 1 * 32 + 1 * k.val = k.val; rw [e]; show 0 * 32 + 1 * k.val = _; omega

/-- Input window 7's block, at every point, is the whole of its array as the region finds it. -/
theorem blk7 (c : Dev nD) (t : Fin cfg0.N) (x : Fin 1) (k : Fin 32) :
    (iblk m c 7 t : FVec Ideal S1x32 .f32) (ix2 x k) = (V m c main_v0 : S1x32.Idx → EReal) (ix2 x k) := by
  unfold iblk
  rw [View.read_apply]
  show (V m c main_v0 : S1x32.Idx → EReal) (((cfg0.win 7).blk t).view.emb (ix2 x k)) = _
  refine congrArg (V m c main_v0 : S1x32.Idx → EReal) (funext fun a => Fin.ext ?_)
  have e := (idx_fixed t).2.2.2.1
  match a with
  | ⟨0, _⟩ => show win0_7.index t 0 * 1 + 1 * x.val = x.val; rw [e]; show 0 * 1 + 1 * x.val = _; omega
  | ⟨1, _⟩ => show win0_7.index t 1 * 32 + 1 * k.val = k.val; rw [e]; show 0 * 32 + 1 * k.val = _; omega

/-- Input window 8's block, at every point, is the whole of its array as the region finds it. -/
theorem blk8 (c : Dev nD) (t : Fin cfg0.N) (x : Fin 32) (k : Fin 1024) :
    (iblk m c 8 t : FVec Ideal S32x1024 .f32) (ix2 x k) = (V m c main_arg6 : S32x1024.Idx → EReal) (ix2 x k) := by
  unfold iblk
  rw [View.read_apply]
  show (V m c main_arg6 : S32x1024.Idx → EReal) (((cfg0.win 8).blk t).view.emb (ix2 x k)) = _
  refine congrArg (V m c main_arg6 : S32x1024.Idx → EReal) (funext fun a => Fin.ext ?_)
  have e := (idx_fixed t).2.2.2.2.1
  match a with
  | ⟨0, _⟩ => show win0_8.index t 0 * 32 + 1 * x.val = x.val; rw [e]; show 0 * 32 + 1 * x.val = _; omega
  | ⟨1, _⟩ => show win0_8.index t 1 * 1024 + 1 * k.val = k.val; rw [e]; show 0 * 1024 + 1 * k.val = _; omega

/-- Input window 9's block, at every point, is the whole of its array as the region finds it. -/
theorem blk9 (c : Dev nD) (t : Fin cfg0.N) (x : Fin 1) (k : Fin 1024) :
    (iblk m c 9 t : FVec Ideal S1x1024 .f32) (ix2 x k) = (V m c main_v1 : S1x1024.Idx → EReal) (ix2 x k) := by
  unfold iblk
  rw [View.read_apply]
  show (V m c main_v1 : S1x1024.Idx → EReal) (((cfg0.win 9).blk t).view.emb (ix2 x k)) = _
  refine congrArg (V m c main_v1 : S1x1024.Idx → EReal) (funext fun a => Fin.ext ?_)
  have e := (idx_fixed t).2.2.2.2.2.1
  match a with
  | ⟨0, _⟩ => show win0_9.index t 0 * 1 + 1 * x.val = x.val; rw [e]; show 0 * 1 + 1 * x.val = _; omega
  | ⟨1, _⟩ => show win0_9.index t 1 * 1024 + 1 * k.val = k.val; rw [e]; show 0 * 1024 + 1 * k.val = _; omega

/-- Input window 10's block, at every point, is the whole of its array as the region finds it. -/
theorem blk10 (c : Dev nD) (t : Fin cfg0.N) (x : Fin 1) (k : Fin 256) :
    (iblk m c 10 t : FVec Ideal S1x256 .f32) (ix2 x k) = (V m c main_v7 : S1x256.Idx → EReal) (ix2 x k) := by
  unfold iblk
  rw [View.read_apply]
  show (V m c main_v7 : S1x256.Idx → EReal) (((cfg0.win 10).blk t).view.emb (ix2 x k)) = _
  refine congrArg (V m c main_v7 : S1x256.Idx → EReal) (funext fun a => Fin.ext ?_)
  have e := (idx_fixed t).2.2.2.2.2.2.1
  match a with
  | ⟨0, _⟩ => show win0_10.index t 0 * 1 + 1 * x.val = x.val; rw [e]; show 0 * 1 + 1 * x.val = _; omega
  | ⟨1, _⟩ => show win0_10.index t 1 * 256 + 1 * k.val = k.val; rw [e]; show 0 * 256 + 1 * k.val = _; omega

/-- Input window 11's block, at every point, is the whole of its array as the region finds it. -/
theorem blk11 (c : Dev nD) (t : Fin cfg0.N) (x : Fin 1) (k : Fin 64) :
    (iblk m c 11 t : FVec Ideal S1x64 .f32) (ix2 x k) = (V m c main_v9 : S1x64.Idx → EReal) (ix2 x k) := by
  unfold iblk
  rw [View.read_apply]
  show (V m c main_v9 : S1x64.Idx → EReal) (((cfg0.win 11).blk t).view.emb (ix2 x k)) = _
  refine congrArg (V m c main_v9 : S1x64.Idx → EReal) (funext fun a => Fin.ext ?_)
  have e := (idx_fixed t).2.2.2.2.2.2.2.1
  match a with
  | ⟨0, _⟩ => show win0_11.index t 0 * 1 + 1 * x.val = x.val; rw [e]; show 0 * 1 + 1 * x.val = _; omega
  | ⟨1, _⟩ => show win0_11.index t 1 * 64 + 1 * k.val = k.val; rw [e]; show 0 * 64 + 1 * k.val = _; omega

/-- Input window 12's block, at every point, is the whole of its array as the region finds it. -/
theorem blk12 (c : Dev nD) (t : Fin cfg0.N) (x : Fin 1) (k : Fin 256) :
    (iblk m c 12 t : FVec Ideal S1x256 .f32) (ix2 x k) = (V m c main_v11 : S1x256.Idx → EReal) (ix2 x k) := by
  unfold iblk
  rw [View.read_apply]
  show (V m c main_v11 : S1x256.Idx → EReal) (((cfg0.win 12).blk t).view.emb (ix2 x k)) = _
  refine congrArg (V m c main_v11 : S1x256.Idx → EReal) (funext fun a => Fin.ext ?_)
  have e := (idx_fixed t).2.2.2.2.2.2.2.2.1
  match a with
  | ⟨0, _⟩ => show win0_12.index t 0 * 1 + 1 * x.val = x.val; rw [e]; show 0 * 1 + 1 * x.val = _; omega
  | ⟨1, _⟩ => show win0_12.index t 1 * 256 + 1 * k.val = k.val; rw [e]; show 0 * 256 + 1 * k.val = _; omega

/-- Input window 13's block, at every point, is the whole of its array as the region finds it. -/
theorem blk13 (c : Dev nD) (t : Fin cfg0.N) (x : Fin 1) (k : Fin 256) :
    (iblk m c 13 t : FVec Ideal S1x256 .f32) (ix2 x k) = (V m c main_v13 : S1x256.Idx → EReal) (ix2 x k) := by
  unfold iblk
  rw [View.read_apply]
  show (V m c main_v13 : S1x256.Idx → EReal) (((cfg0.win 13).blk t).view.emb (ix2 x k)) = _
  refine congrArg (V m c main_v13 : S1x256.Idx → EReal) (funext fun a => Fin.ext ?_)
  have e := (idx_fixed t).2.2.2.2.2.2.2.2.2.1
  match a with
  | ⟨0, _⟩ => show win0_13.index t 0 * 1 + 1 * x.val = x.val; rw [e]; show 0 * 1 + 1 * x.val = _; omega
  | ⟨1, _⟩ => show win0_13.index t 1 * 256 + 1 * k.val = k.val; rw [e]; show 0 * 256 + 1 * k.val = _; omega

/-- Input window 14's block, at every point, is the whole of its array as the region finds it. -/
theorem blk14 (c : Dev nD) (t : Fin cfg0.N) (x : Fin 1) (k : Fin 1) :
    (iblk m c 14 t : FVec Ideal S1x1 .f32) (ix2 x k) = (V m c main_v2 : S1x1.Idx → EReal) (ix2 x k) := by
  unfold iblk
  rw [View.read_apply]
  show (V m c main_v2 : S1x1.Idx → EReal) (((cfg0.win 14).blk t).view.emb (ix2 x k)) = _
  refine congrArg (V m c main_v2 : S1x1.Idx → EReal) (funext fun a => Fin.ext ?_)
  have e := (idx_fixed t).2.2.2.2.2.2.2.2.2.2
  match a with
  | ⟨0, _⟩ => show win0_14.index t 0 * 1 + 1 * x.val = x.val; rw [e]; show 0 * 1 + 1 * x.val = _; omega
  | ⟨1, _⟩ => show win0_14.index t 1 * 1 + 1 * k.val = k.val; rw [e]; show 0 * 1 + 1 * k.val = _; omega

/-! ## The rows of the blocks are rows of the arrays; the weight blocks are the weight groups -/

theorem hz : (![0, 0] : Fin 2 → Nat) = fun _ => 0 := funext fun a => by fin_cases a <;> rfl

section Rows
variable (c : Dev nD) (t : Fin cfg0.N) (r : Fin 2048)

theorem row_dyn : row (iblk m c 0 t : FVec Ideal S2048x256 .f32) r = row (aDyn m c) (rowAt t r) := funext fun x => blk0 m c t r x
theorem row_act : row (iblk m c 1 t : FVec Ideal S2048x64 .f32) r = row (aAct m c) (rowAt t r) := funext fun x => blk1 m c t r x
theorem row_ph : row (iblk m c 2 t : FVec Ideal S2048x256 .f32) r = row (aPh m c) (rowAt t r) := funext fun x => blk2 m c t r x
theorem row_pc : row (iblk m c 3 t : FVec Ideal S2048x256 .f32) r = row (aPc m c) (rowAt t r) := funext fun x => blk3 m c t r x

theorem w_w1d : (fun x k => (iblk m c 4 t : FVec Ideal S256x32 .f32) (ix2 x k)) = rowsFrom 0 256 (by omega) (aW1 m c) :=
  funext fun x => funext fun k => (blk4 m c t x k).trans (Vw1d m c x k)
theorem w_w1a : (fun x k => (iblk m c 5 t : FVec Ideal S64x32 .f32) (ix2 x k)) = rowsFrom 256 64 (by omega) (aW1 m c) :=
  funext fun x => funext fun k => (blk5 m c t x k).trans (Vw1a m c x k)
theorem w_w1h : (fun x k => (iblk m c 6 t : FVec Ideal S256x32 .f32) (ix2 x k)) = rowsFrom 320 256 (by omega) (aW1 m c) :=
  funext fun x => funext fun k => (blk6 m c t x k).trans (Vw1h m c x k)
theorem w_b1 : (fun k => (iblk m c 7 t : FVec Ideal S1x32 .f32) (ix2 (0 : Fin 1) k)) = fun k => aB1 m c (ix1 k) :=
  funext fun k => (blk7 m c t 0 k).trans (Vb1 m c k)
theorem w_w2 : (fun k j => (iblk m c 8 t : FVec Ideal S32x1024 .f32) (ix2 k j)) = fun k j => aW2 m c (ix2 k j) :=
  funext fun k => funext fun j => (blk8 m c t k j).trans (congrFun (V_main_arg6 m c) (ix2 k j))
theorem w_b2 : (fun j => (iblk m c 9 t : FVec Ideal S1x1024 .f32) (ix2 (0 : Fin 1) j)) = fun j => aB2 m c (ix1 j) :=
  funext fun j => (blk9 m c t 0 j).trans (Vb2 m c j)
theorem w_rd : (fun x => (iblk m c 10 t : FVec Ideal S1x256 .f32) (ix2 (0 : Fin 1) x)) = colFrom 0 256 (by omega) (aWr m c) :=
  funext fun x => (blk10 m c t 0 x).trans (Vwrd m c x)
theorem w_ra : (fun x => (iblk m c 11 t : FVec Ideal S1x64 .f32) (ix2 (0 : Fin 1) x)) = colFrom 256 64 (by omega) (aWr m c) :=
  funext fun x => (blk11 m c t 0 x).trans (Vwra m c x)
theorem w_rh : (fun x => (iblk m c 12 t : FVec Ideal S1x256 .f32) (ix2 (0 : Fin 1) x)) = colFrom 320 256 (by omega) (aWr m c) :=
  funext fun x => (blk12 m c t 0 x).trans (Vwrh m c x)
theorem w_rn : (fun x => (iblk m c 13 t : FVec Ideal S1x256 .f32) (ix2 (0 : Fin 1) x)) = colFrom 576 256 (by omega) (aWr m c) :=
  funext fun x => (blk13 m c t 0 x).trans (Vwrn m c x)
theorem w_br : (iblk m c 14 t : FVec Ideal S1x1 .f32) (ix2 (0 : Fin 1) (0 : Fin 1)) = aBr m c (ix1 (0 : Fin 1)) :=
  (blk14 m c t 0 0).trans (Vbr m c)

end Rows

/-! ## What each point writes back -/

/-- Where block entry `(r, q)` of a 256-column result window sits in its array. -/
theorem emb15 (t : Fin cfg0.N) (r : Fin 2048) (q : Fin 256) :
    ((cfg0.win 15).blk t).view.emb (ix2 r q) = (ix2 (rowAt t r) q : S65536x256.Idx) := by
  funext a; apply Fin.ext
  have e := (idx_moving t).2.2.2.2.1
  match a with
  | ⟨0, _⟩ => show win0_15.index t 0 * 2048 + 1 * r.val = 2048 * t.val + r.val; rw [e]; show t.val * 2048 + 1 * r.val = _; omega
  | ⟨1, _⟩ => show win0_15.index t 1 * 256 + 1 * q.val = q.val; rw [e]; show 0 * 256 + 1 * q.val = _; omega

/-- Point `t` writes back block `t` of the new hidden state array. -/
theorem flushedH (c : Dev nD) (t : Fin cfg0.N) :
    (dats m 0 c).flushed 15 t = ((cfg0.win 15).blk t).view.read (Elt Ideal) (arrH (aPh m c) (aPc m c) (aAct m c) (aDyn m c) (aW1 m c) (aB1 m c) (aW2 m c) (aB2 m c)) := by
  show (cfg0.win 15).cut (grid0.coords t) ((dats m 0 c).after 15 t) = _
  rw [after0_15]
  unfold out0_15
  rw [View.canon_unit_zero hz]
  simp only [View.ld_unit_zero (S := S2048x256) hz, View.ld_unit_zero (S := S2048x64) hz, View.ld_unit_zero (S := S256x32) hz,
    View.ld_unit_zero (S := S64x32) hz, View.ld_unit_zero (S := S1x32) hz, View.ld_unit_zero (S := S32x1024) hz,
    View.ld_unit_zero (S := S1x1024) hz]
  show (fun y : S2048x256.Idx => k0_pay4 (F := Ideal) (iblk m c 3 t) (k0_pay1 (iblk m c 0 t) (iblk m c 1 t) (iblk m c 2 t) (iblk m c 4 t) (iblk m c 5 t) (iblk m c 6 t) (iblk m c 7 t) (iblk m c 8 t) (iblk m c 9 t))
      (k0_pay2 (iblk m c 0 t) (iblk m c 1 t) (iblk m c 2 t) (iblk m c 4 t) (iblk m c 5 t) (iblk m c 6 t) (iblk m c 7 t) (iblk m c 8 t) (iblk m c 9 t)) y)
    = fun y : S2048x256.Idx => arrH (aPh m c) (aPc m c) (aAct m c) (aDyn m c) (aW1 m c) (aB1 m c) (aW2 m c) (aB2 m c) (((cfg0.win 15).blk t).view.emb y)
  funext y
  obtain ⟨r, q, rfl⟩ : ∃ (r : Fin 2048) (q : Fin 256), y = ix2 r q := ⟨y 0, y 1, eq_ix2 y⟩
  refine (storedH (iblk m c 0 t) (iblk m c 1 t) (iblk m c 2 t) (iblk m c 3 t) (iblk m c 4 t) (iblk m c 5 t) (iblk m c 6 t) (iblk m c 7 t) (iblk m c 8 t) (iblk m c 9 t) r q).trans ?_
  rw [emb15 t r q, row_dyn m c t r, row_act m c t r, row_ph m c t r, row_pc m c t r, w_w1d m c t, w_w1a m c t, w_w1h m c t,
    w_b1 m c t, w_w2 m c t, w_b2 m c t]
  rfl

/-- An index is in point `t`'s block of result window 15 iff each coordinate is in the block's range. -/
theorem mem_blk15 (t : Fin cfg0.N) (i : S65536x256.Idx) :
    i ∈ ((cfg0.win 15).blk t).view.set ↔ ∀ a : Fin 2, win0_15.index t a * S2048x256.size a ≤ (i a).val
      ∧ (i a).val < win0_15.index t a * S2048x256.size a + S2048x256.size a := by
  show i ∈ ((View.whole main_v14_0).slice (win0_15.rect t)).set ↔ _
  rw [View.set_slice_whole, Rect.mem_set_unit]
  exact Iff.rfl

/-- Every row of the new hidden state array lies in the block of the point `row / 2048`. -/
theorem cover15 (i : S65536x256.Idx) : ∃ t : Fin cfg0.N, (cfg0.win 15).flush t = true ∧ i ∈ ((cfg0.win 15).blk t).view.set := by
  have hN : cfg0.N = 32 := N_0
  have hi0 : (i 0).val < 65536 := (i 0).isLt
  have hi1 : (i 1).val < 256 := (i 1).isLt
  have ht : (i 0).val / 2048 < cfg0.N := by rw [hN]; omega
  refine ⟨⟨(i 0).val / 2048, ht⟩, flush0_15 _, ?_⟩
  rw [mem_blk15]
  have e := (idx_moving ⟨(i 0).val / 2048, ht⟩).2.2.2.2.1
  intro a
  match a with
  | ⟨0, _⟩ =>
    show win0_15.index ⟨(i 0).val / 2048, ht⟩ 0 * 2048 ≤ (i 0).val
      ∧ (i 0).val < win0_15.index ⟨(i 0).val / 2048, ht⟩ 0 * 2048 + 2048
    rw [e]; show (i 0).val / 2048 * 2048 ≤ (i 0).val ∧ (i 0).val < (i 0).val / 2048 * 2048 + 2048; omega
  | ⟨1, _⟩ =>
    show win0_15.index ⟨(i 0).val / 2048, ht⟩ 1 * 256 ≤ (i 1).val
      ∧ (i 1).val < win0_15.index ⟨(i 0).val / 2048, ht⟩ 1 * 256 + 256
    rw [e]; show 0 * 256 ≤ (i 1).val ∧ (i 1).val < 0 * 256 + 256; omega

/-- The new hidden state array after the run. -/
theorem finalH (c : Dev nD) : (dats m 0 c).arrAt 15 cfg0.N = arrH (aPh m c) (aPc m c) (aAct m c) (aDyn m c) (aW1 m c) (aB1 m c) (aW2 m c) (aB2 m c) :=
  (dats m 0 c).arrAt_eq_of_cover 15 _ (fun t _ => flushedH m c t) cover15

/-! ## The new cell state window -/

theorem emb16 (t : Fin cfg0.N) (r : Fin 2048) (q : Fin 256) :
    ((cfg0.win 16).blk t).view.emb (ix2 r q) = (ix2 (rowAt t r) q : S65536x256.Idx) := by
  funext a; apply Fin.ext
  have e := (idx_moving t).2.2.2.2.2.1
  match a with
  | ⟨0, _⟩ => show win0_16.index t 0 * 2048 + 1 * r.val = 2048 * t.val + r.val; rw [e]; show t.val * 2048 + 1 * r.val = _; omega
  | ⟨1, _⟩ => show win0_16.index t 1 * 256 + 1 * q.val = q.val; rw [e]; show 0 * 256 + 1 * q.val = _; omega

/-- Point `t` writes back block `t` of the new cell state array. -/
theorem flushedC (c : Dev nD) (t : Fin cfg0.N) :
    (dats m 0 c).flushed 16 t = ((cfg0.win 16).blk t).view.read (Elt Ideal) (arrC (aPh m c) (aPc m c) (aAct m c) (aDyn m c) (aW1 m c) (aB1 m c) (aW2 m c) (aB2 m c)) := by
  show (cfg0.win 16).cut (grid0.coords t) ((dats m 0 c).after 16 t) = _
  rw [after0_16]
  unfold out0_16
  rw [View.canon_unit_zero hz]
  simp only [View.ld_unit_zero (S := S2048x256) hz, View.ld_unit_zero (S := S2048x64) hz, View.ld_unit_zero (S := S256x32) hz,
    View.ld_unit_zero (S := S64x32) hz, View.ld_unit_zero (S := S1x32) hz, View.ld_unit_zero (S := S32x1024) hz,
    View.ld_unit_zero (S := S1x1024) hz]
  show (fun y : S2048x256.Idx => k0_pay3 (F := Ideal) (iblk m c 3 t) (k0_pay1 (iblk m c 0 t) (iblk m c 1 t) (iblk m c 2 t) (iblk m c 4 t) (iblk m c 5 t) (iblk m c 6 t) (iblk m c 7 t) (iblk m c 8 t) (iblk m c 9 t))
      (k0_pay2 (iblk m c 0 t) (iblk m c 1 t) (iblk m c 2 t) (iblk m c 4 t) (iblk m c 5 t) (iblk m c 6 t) (iblk m c 7 t) (iblk m c 8 t) (iblk m c 9 t)) y)
    = fun y : S2048x256.Idx => arrC (aPh m c) (aPc m c) (aAct m c) (aDyn m c) (aW1 m c) (aB1 m c) (aW2 m c) (aB2 m c) (((cfg0.win 16).blk t).view.emb y)
  funext y
  obtain ⟨r, q, rfl⟩ : ∃ (r : Fin 2048) (q : Fin 256), y = ix2 r q := ⟨y 0, y 1, eq_ix2 y⟩
  refine (storedC (iblk m c 0 t) (iblk m c 1 t) (iblk m c 2 t) (iblk m c 3 t) (iblk m c 4 t) (iblk m c 5 t) (iblk m c 6 t) (iblk m c 7 t) (iblk m c 8 t) (iblk m c 9 t) r q).trans ?_
  rw [emb16 t r q, row_dyn m c t r, row_act m c t r, row_ph m c t r, row_pc m c t r, w_w1d m c t, w_w1a m c t, w_w1h m c t,
    w_b1 m c t, w_w2 m c t, w_b2 m c t]
  rfl

/-- An index is in point `t`'s block of result window 16 iff each coordinate is in the block's range. -/
theorem mem_blk16 (t : Fin cfg0.N) (i : S65536x256.Idx) :
    i ∈ ((cfg0.win 16).blk t).view.set ↔ ∀ a : Fin 2, win0_16.index t a * S2048x256.size a ≤ (i a).val
      ∧ (i a).val < win0_16.index t a * S2048x256.size a + S2048x256.size a := by
  show i ∈ ((View.whole main_v14_1).slice (win0_16.rect t)).set ↔ _
  rw [View.set_slice_whole, Rect.mem_set_unit]
  exact Iff.rfl

/-- Every row of the new cell state array lies in the block of the point `row / 2048`. -/
theorem cover16 (i : S65536x256.Idx) : ∃ t : Fin cfg0.N, (cfg0.win 16).flush t = true ∧ i ∈ ((cfg0.win 16).blk t).view.set := by
  have hN : cfg0.N = 32 := N_0
  have hi0 : (i 0).val < 65536 := (i 0).isLt
  have hi1 : (i 1).val < 256 := (i 1).isLt
  have ht : (i 0).val / 2048 < cfg0.N := by rw [hN]; omega
  refine ⟨⟨(i 0).val / 2048, ht⟩, flush0_16 _, ?_⟩
  rw [mem_blk16]
  have e := (idx_moving ⟨(i 0).val / 2048, ht⟩).2.2.2.2.2.1
  intro a
  match a with
  | ⟨0, _⟩ =>
    show win0_16.index ⟨(i 0).val / 2048, ht⟩ 0 * 2048 ≤ (i 0).val
      ∧ (i 0).val < win0_16.index ⟨(i 0).val / 2048, ht⟩ 0 * 2048 + 2048
    rw [e]; show (i 0).val / 2048 * 2048 ≤ (i 0).val ∧ (i 0).val < (i 0).val / 2048 * 2048 + 2048; omega
  | ⟨1, _⟩ =>
    show win0_16.index ⟨(i 0).val / 2048, ht⟩ 1 * 256 ≤ (i 1).val
      ∧ (i 1).val < win0_16.index ⟨(i 0).val / 2048, ht⟩ 1 * 256 + 256
    rw [e]; show 0 * 256 ≤ (i 1).val ∧ (i 1).val < 0 * 256 + 256; omega

/-- The new cell state array after the run. -/
theorem finalC (c : Dev nD) : (dats m 0 c).arrAt 16 cfg0.N = arrC (aPh m c) (aPc m c) (aAct m c) (aDyn m c) (aW1 m c) (aB1 m c) (aW2 m c) (aB2 m c) :=
  (dats m 0 c).arrAt_eq_of_cover 16 _ (fun t _ => flushedC m c t) cover16

/-! ## The reward window -/

theorem emb17 (t : Fin cfg0.N) (r : Fin 2048) :
    ((cfg0.win 17).blk t).view.emb (ix2 r (0 : Fin 1)) = (ix2 (rowAt t r) (0 : Fin 1) : S65536x1.Idx) := by
  funext a; apply Fin.ext
  have e := (idx_moving t).2.2.2.2.2.2
  match a with
  | ⟨0, _⟩ => show win0_17.index t 0 * 2048 + 1 * r.val = 2048 * t.val + r.val; rw [e]; show t.val * 2048 + 1 * r.val = _; omega
  | ⟨1, _⟩ => show win0_17.index t 1 * 1 + 1 * 0 = 0; rw [e]; show 0 * 1 + 1 * 0 = 0; omega

/-- Point `t` writes back block `t` of the reward array. -/
theorem flushedR (c : Dev nD) (t : Fin cfg0.N) :
    (dats m 0 c).flushed 17 t = ((cfg0.win 17).blk t).view.read (Elt Ideal) (arrR (aPh m c) (aPc m c) (aAct m c) (aDyn m c) (aW1 m c) (aB1 m c) (aW2 m c) (aB2 m c) (aWr m c) (aBr m c)) := by
  show (cfg0.win 17).cut (grid0.coords t) ((dats m 0 c).after 17 t) = _
  rw [after0_17]
  unfold out0_17
  rw [View.canon_unit_zero hz]
  simp only [View.ld_unit_zero (S := S2048x256) hz, View.ld_unit_zero (S := S2048x64) hz, View.ld_unit_zero (S := S256x32) hz,
    View.ld_unit_zero (S := S64x32) hz, View.ld_unit_zero (S := S1x32) hz, View.ld_unit_zero (S := S32x1024) hz,
    View.ld_unit_zero (S := S1x1024) hz, View.ld_unit_zero (S := S1x256) hz, View.ld_unit_zero (S := S1x64) hz, View.ld_unit_zero (S := S1x1) hz]
  show (fun y : S2048x1.Idx => k0_pay5 (F := Ideal) (iblk m c 0 t) (iblk m c 1 t) (iblk m c 2 t) (iblk m c 3 t) (k0_pay1 (iblk m c 0 t) (iblk m c 1 t) (iblk m c 2 t) (iblk m c 4 t) (iblk m c 5 t) (iblk m c 6 t) (iblk m c 7 t) (iblk m c 8 t) (iblk m c 9 t))
      (k0_pay2 (iblk m c 0 t) (iblk m c 1 t) (iblk m c 2 t) (iblk m c 4 t) (iblk m c 5 t) (iblk m c 6 t) (iblk m c 7 t) (iblk m c 8 t) (iblk m c 9 t)) (iblk m c 10 t) (iblk m c 11 t) (iblk m c 12 t) (iblk m c 13 t) (iblk m c 14 t) y)
    = fun y : S2048x1.Idx => arrR (aPh m c) (aPc m c) (aAct m c) (aDyn m c) (aW1 m c) (aB1 m c) (aW2 m c) (aB2 m c) (aWr m c) (aBr m c) (((cfg0.win 17).blk t).view.emb y)
  funext y
  obtain ⟨r, u, rfl⟩ : ∃ (r : Fin 2048) (u : Fin 1), y = ix2 r u := ⟨y 0, y 1, eq_ix2 y⟩
  obtain rfl : u = 0 := Fin.ext (by omega)
  refine (storedR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r).trans ?_
  rw [emb17 t r, row_dyn m c t r, row_act m c t r, row_ph m c t r, row_pc m c t r, w_w1d m c t, w_w1a m c t, w_w1h m c t,
    w_b1 m c t, w_w2 m c t, w_b2 m c t, w_rd m c t, w_ra m c t, w_rh m c t, w_rn m c t, w_br m c t]
  rfl

/-- An index is in point `t`'s block of result window 17 iff each coordinate is in the block's range. -/
theorem mem_blk17 (t : Fin cfg0.N) (i : S65536x1.Idx) :
    i ∈ ((cfg0.win 17).blk t).view.set ↔ ∀ a : Fin 2, win0_17.index t a * S2048x1.size a ≤ (i a).val
      ∧ (i a).val < win0_17.index t a * S2048x1.size a + S2048x1.size a := by
  show i ∈ ((View.whole main_v14_2).slice (win0_17.rect t)).set ↔ _
  rw [View.set_slice_whole, Rect.mem_set_unit]
  exact Iff.rfl

/-- Every row of the reward array lies in the block of the point `row / 2048`. -/
theorem cover17 (i : S65536x1.Idx) : ∃ t : Fin cfg0.N, (cfg0.win 17).flush t = true ∧ i ∈ ((cfg0.win 17).blk t).view.set := by
  have hN : cfg0.N = 32 := N_0
  have hi0 : (i 0).val < 65536 := (i 0).isLt
  have hi1 : (i 1).val < 1 := (i 1).isLt
  have ht : (i 0).val / 2048 < cfg0.N := by rw [hN]; omega
  refine ⟨⟨(i 0).val / 2048, ht⟩, flush0_17 _, ?_⟩
  rw [mem_blk17]
  have e := (idx_moving ⟨(i 0).val / 2048, ht⟩).2.2.2.2.2.2
  intro a
  match a with
  | ⟨0, _⟩ =>
    show win0_17.index ⟨(i 0).val / 2048, ht⟩ 0 * 2048 ≤ (i 0).val
      ∧ (i 0).val < win0_17.index ⟨(i 0).val / 2048, ht⟩ 0 * 2048 + 2048
    rw [e]; show (i 0).val / 2048 * 2048 ≤ (i 0).val ∧ (i 0).val < (i 0).val / 2048 * 2048 + 2048; omega
  | ⟨1, _⟩ =>
    show win0_17.index ⟨(i 0).val / 2048, ht⟩ 1 * 1 ≤ (i 1).val
      ∧ (i 1).val < win0_17.index ⟨(i 0).val / 2048, ht⟩ 1 * 1 + 1
    rw [e]; show 0 * 1 ≤ (i 1).val ∧ (i 1).val < 0 * 1 + 1; omega

/-- The reward array after the run. -/
theorem finalR (c : Dev nD) : (dats m 0 c).arrAt 17 cfg0.N = arrR (aPh m c) (aPc m c) (aAct m c) (aDyn m c) (aW1 m c) (aB1 m c) (aW2 m c) (aB2 m c) (aWr m c) (aBr m c) :=
  (dats m 0 c).arrAt_eq_of_cover 17 _ (fun t _ => flushedR m c t) cover17

/-! ## The run, read -/

/-- Every weakly fair execution of the idealized kernel's @main terminates with the three result arrays at `arrH`, `arrC`,
    `arrR` of the argument arrays, the arguments unchanged: the frame run, each result window's array read by the
    cover, each staged argument by its window never writing back, each unstaged one by the run leaving it alone. -/
theorem run : θ_run defs (onTc (τ := τ) (main (F := Ideal))) ⟨m, fun _ => 0, ρ⟩ fun r => ∀ c : Dev nD,
      r.2.mem ((c : Thread nD τ).loc main_v14_0) = arrH (aPh m c) (aPc m c) (aAct m c) (aDyn m c) (aW1 m c) (aB1 m c) (aW2 m c) (aB2 m c)
      ∧ r.2.mem ((c : Thread nD τ).loc main_v14_1) = arrC (aPh m c) (aPc m c) (aAct m c) (aDyn m c) (aW1 m c) (aB1 m c) (aW2 m c) (aB2 m c)
      ∧ r.2.mem ((c : Thread nD τ).loc main_v14_2) = arrR (aPh m c) (aPc m c) (aAct m c) (aDyn m c) (aW1 m c) (aB1 m c) (aW2 m c) (aB2 m c) (aWr m c) (aBr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 15).trans (finalH m c),
      ((h c).1 16).trans (finalC m c),
      ((h c).1 17).trans (finalR m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 0).trans (((dats m 0 c).arrAt_in 0 rfl _).trans ((A_eq m c 0).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.CellRun

end
-- ==== Proof.LibSumSplit.lean ====
/-
  A finite sum over `Fin n` cut at a position.

  In any commutative additive monoid, the sum of `f` over `Fin n` with `n = a + b` is the sum over the first `a`
  positions plus the sum over the last `b` positions, the latter read at `a + x`. No subtraction or cancellation is used,
  so the law holds on the extended reals as it stands. Cutting twice or three times gives the three- and four-part forms.
-/
import Mathlib.Algebra.BigOperators.Fin

namespace Cert.LibSumSplit

/-- A sum over `Fin n`, `n = a + b`, is the sum over the first `a` positions plus the sum over the last `b`. -/
theorem sum_cut {M : Type*} [AddCommMonoid M] (a b n : ℕ) (h : a + b = n) (f : Fin n → M) :
    ∑ k : Fin n, f k
      = (∑ x : Fin a, f ⟨x.val, by have := x.isLt; omega⟩) + ∑ x : Fin b, f ⟨a + x.val, by have := x.isLt; omega⟩ := by
  subst h
  rw [Fin.sum_univ_add]
  rfl

/-- Three consecutive parts of extents `a`, `b`, `c`. -/
theorem sum_cut3 {M : Type*} [AddCommMonoid M] (a b c n : ℕ) (h : a + b + c = n) (f : Fin n → M) :
    ∑ k : Fin n, f k
      = ((∑ x : Fin a, f ⟨x.val, by have := x.isLt; omega⟩) + ∑ x : Fin b, f ⟨a + x.val, by have := x.isLt; omega⟩)
        + ∑ x : Fin c, f ⟨a + b + x.val, by have := x.isLt; omega⟩ := by
  rw [sum_cut (a + b) c n h f, sum_cut a b (a + b) rfl (fun k => f ⟨k.val, by have := k.isLt; omega⟩)]

/-- Four consecutive parts of extents `a`, `b`, `c`, `d`. -/
theorem sum_cut4 {M : Type*} [AddCommMonoid M] (a b c d n : ℕ) (h : a + b + c + d = n) (f : Fin n → M) :
    ∑ k : Fin n, f k
      = (((∑ x : Fin a, f ⟨x.val, by have := x.isLt; omega⟩) + ∑ x : Fin b, f ⟨a + x.val, by have := x.isLt; omega⟩)
        + ∑ x : Fin c, f ⟨a + b + x.val, by have := x.isLt; omega⟩)
        + ∑ x : Fin d, f ⟨a + b + c + x.val, by have := x.isLt; omega⟩ := by
  rw [sum_cut (a + b + c) d n h f,
    sum_cut3 a b c (a + b + c) rfl (fun k => f ⟨k.val, by have := k.isLt; omega⟩)]

end Cert.LibSumSplit
-- ==== Proof.CellRef.lean ====
/-
  The reference's three results are the same functions of the argument arrays.

  The reference lays a row's dynamics, action and previous hidden state side by side (576 entries) and contracts them with
  `W1` in ONE sum over 576 positions; the kernel's three partial dot products are that sum cut at positions 256 and 320,
  where the concatenation passes from one array to the next. Likewise the reward contracts the 832 entries of the row
  extended by the new hidden state with `Wr`, a sum cut at 256, 320 and 576. A finite sum may be cut anywhere in a
  commutative monoid, so no finiteness is used. The reference spells the logistic function as `1 / (1 + e⁻ˣ)` with the
  host's negation, exponential, sum and quotient, which on the extended reals is the logistic function itself, and its
  biases reach every row through two broadcasts, reading the bias vector at the entry's column.
-/
import proofs.«141736_j45457933860875_2_alg».proof.Proof.Gen.ReferenceIdeal.Read
import proofs.«141736_j45457933860875_2_alg».proof.Proof.CellSpec
import proofs.«141736_j45457933860875_2_alg».proof.Proof.LibSumSplit
import Idealize.ShloMosaic.Lib.Pipeline.Value
import Idealize.ShloMosaic.Lib.ValueIdx
import Idealize.ShloMosaic.PureOps.Ideal.Laws

noncomputable section

namespace Cert.CellRef

open Idealize.ShloMosaic Idealize.ShloMosaic.ValueIdx Cert.ReferenceIdeal Cert.ReferenceIdeal.Gen Cert.ReferenceIdeal.Read
open Cert.CellSpec Cert.LibSumSplit

variable (x0 x1 : (⟨S65536x256, .f32⟩ : BufTy).Contents (Elt Ideal)) (x2 : (⟨S65536x64, .f32⟩ : BufTy).Contents (Elt Ideal)) (x3 : (⟨S65536x256, .f32⟩ : BufTy).Contents (Elt Ideal))
  (x4 : (⟨S576x32, .f32⟩ : BufTy).Contents (Elt Ideal)) (x5 : (⟨S32, .f32⟩ : BufTy).Contents (Elt Ideal)) (x6 : (⟨S32x1024, .f32⟩ : BufTy).Contents (Elt Ideal)) (x7 : (⟨S1024, .f32⟩ : BufTy).Contents (Elt Ideal))
  (x8 : (⟨S832x1, .f32⟩ : BufTy).Contents (Elt Ideal)) (x9 : (⟨S1, .f32⟩ : BufTy).Contents (Elt Ideal))

/-! ## The word of one -/

/-- The pattern of `1.0` denotes the real number one. -/
theorem ofBits_one : Ideal.ofBits .f32 0x3F800000#32 = 1 := by
  simp [Ideal.ofBits, Ideal.ieee, -EReal.coe_mul]; norm_num

/-! ## Read's index functions at entries given by coordinates -/

theorem lidx1 (r : Fin 65536) (k : Fin 32) (k' : Fin 576) : lidx_main_v1 (ix2 r k) k' = ix2 r k' :=
  funext fun a => by match a with | ⟨0, _⟩ => rfl | ⟨1, _⟩ => rfl
theorem ridx1 (r : Fin 65536) (k : Fin 32) (k' : Fin 576) : ridx_main_v1 (ix2 r k) k' = ix2 k' k :=
  funext fun a => by match a with | ⟨0, _⟩ => rfl | ⟨1, _⟩ => rfl
theorem idx23 (r : Fin 65536) (k : Fin 32) : idx_main_v2 (idx_main_v3 (ix2 r k)) = ix1 k :=
  funext fun a => by match a with | ⟨0, _⟩ => rfl
theorem lidx6 (r : Fin 65536) (j : Fin 1024) (k : Fin 32) : lidx_main_v6 (ix2 r j) k = ix2 r k :=
  funext fun a => by match a with | ⟨0, _⟩ => rfl | ⟨1, _⟩ => rfl
theorem ridx6 (r : Fin 65536) (j : Fin 1024) (k : Fin 32) : ridx_main_v6 (ix2 r j) k = ix2 k j :=
  funext fun a => by match a with | ⟨0, _⟩ => rfl | ⟨1, _⟩ => rfl
theorem idx78 (r : Fin 65536) (j : Fin 1024) : idx_main_v7 (idx_main_v8 (ix2 r j)) = ix1 j :=
  funext fun a => by match a with | ⟨0, _⟩ => rfl
theorem idx10 (r : Fin 65536) (q : Fin 256) : idx_main_v10 (ix2 r q) = ix2 r ⟨q.val, by have := q.isLt; omega⟩ :=
  funext fun a => by match a with | ⟨0, _⟩ => rfl | ⟨1, _⟩ => rfl
theorem idx11 (r : Fin 65536) (q : Fin 256) : idx_main_v11 (ix2 r q) = ix2 r ⟨256 + q.val, by have := q.isLt; omega⟩ :=
  funext fun a => by match a with | ⟨0, _⟩ => rfl | ⟨1, _⟩ => rfl
theorem idx12 (r : Fin 65536) (q : Fin 256) : idx_main_v12 (ix2 r q) = ix2 r ⟨512 + q.val, by have := q.isLt; omega⟩ :=
  funext fun a => by match a with | ⟨0, _⟩ => rfl | ⟨1, _⟩ => rfl
theorem idx13 (r : Fin 65536) (q : Fin 256) : idx_main_v13 (ix2 r q) = ix2 r ⟨768 + q.val, by have := q.isLt; omega⟩ :=
  funext fun a => by match a with | ⟨0, _⟩ => rfl | ⟨1, _⟩ => rfl
theorem lidx39 (r : Fin 65536) (k : Fin 832) : lidx_main_v39 (ix2 r (0 : Fin 1)) k = ix2 r k :=
  funext fun a => by match a with | ⟨0, _⟩ => rfl | ⟨1, _⟩ => rfl
theorem ridx39 (r : Fin 65536) (k : Fin 832) : ridx_main_v39 (ix2 r (0 : Fin 1)) k = ix2 k (0 : Fin 1) :=
  funext fun a => by match a with | ⟨0, _⟩ => rfl | ⟨1, _⟩ => rfl
theorem idx4041 (r : Fin 65536) : idx_main_v40 (idx_main_v41 (ix2 r (0 : Fin 1))) = ix1 (0 : Fin 1) :=
  funext fun a => by match a with | ⟨0, _⟩ => rfl

/-! ## The two concatenations, piece by piece -/

/-- Columns `0…255` of the joined row are the dynamics. -/
theorem cat_dyn (r : Fin 65536) (x : Fin 256) :
    val_main_v0 (F := Ideal) x0 x2 x3 (ix2 r ⟨x.val, by have := x.isLt; omega⟩) = x3 (ix2 r x) := by
  unfold val_main_v0
  refine concatenate_apply_piece _ _ _ _ 0 ?hk S65536x256 x3 ?hxk ?hr 0 ?hpre (ix2 r x) ?hi ?ha
  case hk => show (0 : ℕ) < 3; omega
  case hxk => rfl
  case hr => rfl
  case hpre => rfl
  case hi =>
    intro b hb
    match b with
    | ⟨0, _⟩ => rfl
    | ⟨1, _⟩ => exact absurd rfl hb
  case ha => show 0 + x.val = x.val; omega

/-- Columns `256…319` are the action. -/
theorem cat_act (r : Fin 65536) (x : Fin 64) :
    val_main_v0 (F := Ideal) x0 x2 x3 (ix2 r ⟨256 + x.val, by have := x.isLt; omega⟩) = x2 (ix2 r x) := by
  unfold val_main_v0
  refine concatenate_apply_piece _ _ _ _ 1 ?hk S65536x64 x2 ?hxk ?hr 256 ?hpre (ix2 r x) ?hi ?ha
  case hk => show (1 : ℕ) < 3; omega
  case hxk => rfl
  case hr => rfl
  case hpre => rfl
  case hi =>
    intro b hb
    match b with
    | ⟨0, _⟩ => rfl
    | ⟨1, _⟩ => exact absurd rfl hb
  case ha => rfl

/-- Columns `320…575` are the previous hidden state. -/
theorem cat_ph (r : Fin 65536) (x : Fin 256) :
    val_main_v0 (F := Ideal) x0 x2 x3 (ix2 r ⟨320 + x.val, by have := x.isLt; omega⟩) = x0 (ix2 r x) := by
  unfold val_main_v0
  refine concatenate_apply_piece _ _ _ _ 2 ?hk S65536x256 x0 ?hxk ?hr 320 ?hpre (ix2 r x) ?hi ?ha
  case hk => show (2 : ℕ) < 3; omega
  case hxk => rfl
  case hr => rfl
  case hpre => rfl
  case hi =>
    intro b hb
    match b with
    | ⟨0, _⟩ => rfl
    | ⟨1, _⟩ => exact absurd rfl hb
  case ha => rfl

/-- Columns `0…575` of the extended row are the joined row. -/
theorem cat_left (r : Fin 65536) (k : Fin 576) :
    val_main_v38 (F := Ideal) x0 x1 x2 x3 x4 x5 x6 x7 (ix2 r ⟨k.val, by have := k.isLt; omega⟩)
      = val_main_v0 (F := Ideal) x0 x2 x3 (ix2 r k) := by
  unfold val_main_v38
  refine concatenate_apply_piece _ _ _ _ 0 ?hk S65536x576 (val_main_v0 (F := Ideal) x0 x2 x3) ?hxk ?hr 0 ?hpre (ix2 r k) ?hi ?ha
  case hk => show (0 : ℕ) < 2; omega
  case hxk => rfl
  case hr => rfl
  case hpre => rfl
  case hi =>
    intro b hb
    match b with
    | ⟨0, _⟩ => rfl
    | ⟨1, _⟩ => exact absurd rfl hb
  case ha => show 0 + k.val = k.val; omega

/-- Columns `576…831` are the new hidden state. -/
theorem cat_nh (r : Fin 65536) (x : Fin 256) :
    val_main_v38 (F := Ideal) x0 x1 x2 x3 x4 x5 x6 x7 (ix2 r ⟨576 + x.val, by have := x.isLt; omega⟩)
      = val_main_v37 (F := Ideal) x0 x1 x2 x3 x4 x5 x6 x7 (ix2 r x) := by
  unfold val_main_v38
  refine concatenate_apply_piece _ _ _ _ 1 ?hk S65536x256 (val_main_v37 (F := Ideal) x0 x1 x2 x3 x4 x5 x6 x7) ?hxk ?hr 576 ?hpre
    (ix2 r x) ?hi ?ha
  case hk => show (1 : ℕ) < 2; omega
  case hxk => rfl
  case hr => rfl
  case hpre => rfl
  case hi =>
    intro b hb
    match b with
    | ⟨0, _⟩ => rfl
    | ⟨1, _⟩ => exact absurd rfl hb
  case ha => rfl

/-! ## The layers -/

/-- The first layer at `(r, k)`. -/
theorem ref_hidden (r : Fin 65536) (k : Fin 32) :
    val_main_v5 (F := Ideal) x0 x2 x3 x4 x5 (ix2 r k)
      = hidden (row x3 r) (row x2 r) (row x0 r) (rowsFrom 0 256 (by omega) x4) (rowsFrom 256 64 (by omega) x4)
          (rowsFrom 320 256 (by omega) x4) (fun k => x5 (ix1 k)) k := by
  rw [val_main_v5_apply, val_main_v4_apply, val_main_v3_apply, val_main_v2_apply, val_main_v1_apply, idx23]
  unfold CellSpec.hidden
  show Ideal.tanh (_ + _) = Ideal.tanh (_ + _)
  refine congrArg (fun s => Ideal.tanh (s + x5 (ix1 k))) ?_
  rw [sum_cut3 256 64 256 576 rfl]
  refine congrArg₂ (· + ·) (congrArg₂ (· + ·) ?_ ?_) ?_
  · refine Finset.sum_congr rfl fun x _ => ?_
    rw [lidx1, ridx1, cat_dyn]
    exact congrArg₂ (· * ·) rfl (congrArg (fun y => x4 (ix2 y k)) (Fin.ext (Nat.zero_add _).symm))
  · refine Finset.sum_congr rfl fun x _ => ?_
    rw [lidx1, ridx1, cat_act]
  · refine Finset.sum_congr rfl fun x _ => ?_
    rw [lidx1, ridx1]
    exact congrArg₂ (· * ·) (cat_ph x0 x2 x3 r x) rfl

/-- The gate pre-activations at `(r, j)`. -/
theorem ref_gates (r : Fin 65536) (j : Fin 1024) :
    val_main_v9 (F := Ideal) x0 x2 x3 x4 x5 x6 x7 (ix2 r j)
      = gates (row x3 r) (row x2 r) (row x0 r) (rowsFrom 0 256 (by omega) x4) (rowsFrom 256 64 (by omega) x4)
          (rowsFrom 320 256 (by omega) x4) (fun k => x5 (ix1 k)) (fun k j => x6 (ix2 k j)) (fun j => x7 (ix1 j)) j := by
  rw [val_main_v9_apply, val_main_v8_apply, val_main_v7_apply, val_main_v6_apply, idx78]
  unfold gates gate
  show _ + _ = _ + _
  refine congrArg (· + x7 (ix1 j)) ?_
  refine Finset.sum_congr rfl fun k _ => ?_
  rw [lidx6, ridx6, ref_hidden]

/-- The host's spelling of the logistic function. -/
theorem host_logistic (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [ofBits_one]
  rfl

/-- The new cell state at `(r, q)`. -/
theorem ref_C (r : Fin 65536) (q : Fin 256) :
    val_main_v35 (F := Ideal) x0 x1 x2 x3 x4 x5 x6 x7 (ix2 r q)
      = outC (row x3 r) (row x2 r) (row x0 r) (row x1 r) (rowsFrom 0 256 (by omega) x4) (rowsFrom 256 64 (by omega) x4)
          (rowsFrom 320 256 (by omega) x4) (fun k => x5 (ix1 k)) (fun k j => x6 (ix2 k j)) (fun j => x7 (ix1 j)) q := by
  rw [val_main_v35_apply, val_main_v33_apply, val_main_v34_apply, val_main_v25_apply, val_main_v19_apply, val_main_v26_apply,
    val_main_v24_apply, val_main_v23_apply, val_main_v22_apply, val_main_v21_apply, val_main_v20_apply, val_main_v18_apply,
    val_main_v17_apply, val_main_v16_apply, val_main_v15_apply, val_main_v14_apply, val_main_cst_apply, val_main_cst_0_apply,
    val_main_cst_1_apply, val_main_cst_2_apply, val_main_v10_apply, val_main_v11_apply, val_main_v12_apply,
    idx10, idx11, idx12, host_logistic, host_logistic, ref_gates, ref_gates, ref_gates]
  rfl

/-- The new hidden state at `(r, q)`. -/
theorem ref_H (r : Fin 65536) (q : Fin 256) :
    val_main_v37 (F := Ideal) x0 x1 x2 x3 x4 x5 x6 x7 (ix2 r q)
      = outH (row x3 r) (row x2 r) (row x0 r) (row x1 r) (rowsFrom 0 256 (by omega) x4) (rowsFrom 256 64 (by omega) x4)
          (rowsFrom 320 256 (by omega) x4) (fun k => x5 (ix1 k)) (fun k j => x6 (ix2 k j)) (fun j => x7 (ix1 j)) q := by
  rw [val_main_v37_apply, val_main_v36_apply, val_main_v32_apply, val_main_v31_apply, val_main_v30_apply, val_main_v29_apply,
    val_main_v28_apply, val_main_v27_apply, val_main_cst_3_apply, val_main_cst_4_apply, val_main_v13_apply, idx13,
    host_logistic, ref_gates, ref_C]
  rfl

/-- The reward at row `r`. -/
theorem ref_R (r : Fin 65536) :
    val_main_v43 (F := Ideal) x0 x1 x2 x3 x4 x5 x6 x7 x8 x9 (ix2 r (0 : Fin 1))
      = outR (row x3 r) (row x2 r) (row x0 r) (row x1 r) (rowsFrom 0 256 (by omega) x4) (rowsFrom 256 64 (by omega) x4)
          (rowsFrom 320 256 (by omega) x4) (fun k => x5 (ix1 k)) (fun k j => x6 (ix2 k j)) (fun j => x7 (ix1 j))
          (colFrom 0 256 (by omega) x8) (colFrom 256 64 (by omega) x8) (colFrom 320 256 (by omega) x8)
          (colFrom 576 256 (by omega) x8) (x9 (ix1 (0 : Fin 1))) := by
  rw [val_main_v43_apply, val_main_v42_apply, val_main_v41_apply, val_main_v40_apply, val_main_v39_apply, idx4041]
  unfold outR reward
  show Ideal.tanh (_ + _) = Ideal.tanh (_ + _)
  refine congrArg (fun s => Ideal.tanh (s + x9 (ix1 (0 : Fin 1)))) ?_
  rw [sum_cut4 256 64 256 256 832 rfl]
  refine congrArg₂ (· + ·) (congrArg₂ (· + ·) (congrArg₂ (· + ·) ?_ ?_) ?_) ?_
  · refine Finset.sum_congr rfl fun x _ => ?_
    rw [lidx39, ridx39]
    refine congrArg₂ (· * ·) ?_ (congrArg (fun y => x8 (ix2 y (0 : Fin 1))) (Fin.ext (Nat.zero_add _).symm))
    exact (cat_left x0 x1 x2 x3 x4 x5 x6 x7 r ⟨x.val, by have := x.isLt; omega⟩).trans (cat_dyn x0 x2 x3 r x)
  · refine Finset.sum_congr rfl fun x _ => ?_
    rw [lidx39, ridx39]
    refine congrArg₂ (· * ·) ?_ rfl
    exact (cat_left x0 x1 x2 x3 x4 x5 x6 x7 r ⟨256 + x.val, by have := x.isLt; omega⟩).trans (cat_act x0 x2 x3 r x)
  · refine Finset.sum_congr rfl fun x _ => ?_
    rw [lidx39, ridx39]
    refine congrArg₂ (· * ·) ?_ rfl
    exact (cat_left x0 x1 x2 x3 x4 x5 x6 x7 r ⟨320 + x.val, by have := x.isLt; omega⟩).trans (cat_ph x0 x2 x3 r x)
  · refine Finset.sum_congr rfl fun x _ => ?_
    rw [lidx39, ridx39]
    refine congrArg₂ (· * ·) ?_ rfl
    exact (cat_nh x0 x1 x2 x3 x4 x5 x6 x7 r x).trans (ref_H x0 x1 x2 x3 x4 x5 x6 x7 r x)

/-! ## The three result arrays -/

theorem refH_eq : val_main_v37 (F := Ideal) x0 x1 x2 x3 x4 x5 x6 x7 = arrH x0 x1 x2 x3 x4 x5 x6 x7 := by
  funext i
  obtain ⟨r, q, rfl⟩ : ∃ (r : Fin 65536) (q : Fin 256), i = ix2 r q := ⟨i 0, i 1, eq_ix2 i⟩
  exact ref_H x0 x1 x2 x3 x4 x5 x6 x7 r q

theorem refC_eq : val_main_v35 (F := Ideal) x0 x1 x2 x3 x4 x5 x6 x7 = arrC x0 x1 x2 x3 x4 x5 x6 x7 := by
  funext i
  obtain ⟨r, q, rfl⟩ : ∃ (r : Fin 65536) (q : Fin 256), i = ix2 r q := ⟨i 0, i 1, eq_ix2 i⟩
  exact ref_C x0 x1 x2 x3 x4 x5 x6 x7 r q

theorem refR_eq : val_main_v43 (F := Ideal) x0 x1 x2 x3 x4 x5 x6 x7 x8 x9 = arrR x0 x1 x2 x3 x4 x5 x6 x7 x8 x9 := by
  funext i
  obtain ⟨r, u, rfl⟩ : ∃ (r : Fin 65536) (u : Fin 1), i = ix2 r u := ⟨i 0, i 1, eq_ix2 i⟩
  obtain rfl : u = 0 := Fin.ext (by omega)
  exact ref_R x0 x1 x2 x3 x4 x5 x6 x7 x8 x9 r

end Cert.CellRef

end
-- ==== Proof.lean ====
/-
  A fully connected recurrent cell over a batch of 65536 rows: the kernel against its reference, on the extended reals.

  Each batch row carries 256 dynamics entries, 64 action entries, 256 entries of the previous hidden state and 256 of the
  previous cell state. A first layer of 32 units (hyperbolic tangent) feeds a second layer of 1024 gate pre-activations,
  read in four groups of 256 as input gate, forget gate, candidate and output gate; the new cell state is
  `σ(forget) · previous + σ(input) · tanh(candidate)`, the new hidden state `σ(output) · tanh(new cell)`, and the reward is
  the hyperbolic tangent of a projection of the row extended by the new hidden state (CellSpec).

  The two programs differ in three spellings only, none of which changes a value on the extended reals:
  the kernel computes the first layer and the reward as sums of partial dot products against row groups of the weights
  where the reference contracts one joined row of 576 (resp. 832) entries — a finite sum cut at the joins, which any
  commutative monoid allows, infinities included (LibSumSplit, CellRef); the kernel applies the logistic function where
  the reference writes `1 / (1 + e⁻ˣ)` with negation, exponential, sum and quotient — one function; and the kernel
  narrows its matrix operands to a shorter float format — the identity here. Hence no use is made of the inputs being
  finite.

  The kernel works on blocks of 2048 rows over a grid of 32 points. Each stored value at a row of a block is the row's
  function of the same row of the data blocks (CellBody); the blocks tile the rows, so the three result arrays end at
  `CellSpec.arrH`, `arrC`, `arrR` of the argument arrays (CellRun), which is also what the reference's run computes
  (CellRef). The kernel was not rewritten when idealized, so there is nothing to preserve beyond reading it at the
  extended reals.
-/
import proofs.«141736_j45457933860875_2_alg».proof.Defs
import proofs.«141736_j45457933860875_2_alg».proof.Proof.Gen.Kernel
import proofs.«141736_j45457933860875_2_alg».proof.Proof.Gen.Kernel.Skeleton
import proofs.«141736_j45457933860875_2_alg».proof.Proof.Gen.Kernel.Launch
import proofs.«141736_j45457933860875_2_alg».proof.Proof.Gen.Kernel.Points
import proofs.«141736_j45457933860875_2_alg».proof.Proof.Gen.Kernel.Frame
import proofs.«141736_j45457933860875_2_alg».proof.Proof.Gen.KernelIdeal
import proofs.«141736_j45457933860875_2_alg».proof.Proof.Gen.KernelIdeal.Skeleton
import proofs.«141736_j45457933860875_2_alg».proof.Proof.Gen.KernelIdeal.Launch
import proofs.«141736_j45457933860875_2_alg».proof.Proof.Gen.KernelIdeal.Points
import proofs.«141736_j45457933860875_2_alg».proof.Proof.Gen.KernelIdeal.Frame
import proofs.«141736_j45457933860875_2_alg».proof.Proof.Gen.ReferenceIdeal
import proofs.«141736_j45457933860875_2_alg».proof.Proof.Gen.Pre_finite_inputs
import proofs.«141736_j45457933860875_2_alg».proof.Proof.Gen.ReferenceIdeal.Run
import proofs.«141736_j45457933860875_2_alg».proof.Proof.Gen.ReferenceIdeal.Read
import proofs.«141736_j45457933860875_2_alg».proof.Proof.CellRun
import proofs.«141736_j45457933860875_2_alg».proof.Proof.CellRef
import Idealize.ShloMosaic.Adequacy
import Idealize.ShloMosaic.Init

noncomputable section

namespace Cert.Proof

open Idealize.ShloMosaic Idealize.SL.Sem Cert.CellSpec

/-- The kernel as printed runs to completion and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference has no kernel launch: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs, from memories agreeing on the ten arguments, end with the new hidden state, the new cell state and
    the reward at the same three functions of those arguments. -/
theorem algebraic : Cert.algebraic_KernelIdeal_ReferenceIdeal := by
  intro m ρ m' ρ' _ hagree
  refine ⟨fun c => arrH (Cert.CellRun.aPh m c) (Cert.CellRun.aPc m c) (Cert.CellRun.aAct m c) (Cert.CellRun.aDyn m c)
      (Cert.CellRun.aW1 m c) (Cert.CellRun.aB1 m c) (Cert.CellRun.aW2 m c) (Cert.CellRun.aB2 m c),
    fun c => arrC (Cert.CellRun.aPh m c) (Cert.CellRun.aPc m c) (Cert.CellRun.aAct m c) (Cert.CellRun.aDyn m c)
      (Cert.CellRun.aW1 m c) (Cert.CellRun.aB1 m c) (Cert.CellRun.aW2 m c) (Cert.CellRun.aB2 m c),
    fun c => arrR (Cert.CellRun.aPh m c) (Cert.CellRun.aPc m c) (Cert.CellRun.aAct m c) (Cert.CellRun.aDyn m c)
      (Cert.CellRun.aW1 m c) (Cert.CellRun.aB1 m c) (Cert.CellRun.aW2 m c) (Cert.CellRun.aB2 m c)
      (Cert.CellRun.aWr m c) (Cert.CellRun.aBr m c),
    Cert.CellRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2⟩
  · rw [Cert.ReferenceIdeal.Read.val_main_v37_eq, Cert.CellRef.refH_eq, a0, a1, a2, a3, a4, a5, a6, a7]
  · rw [Cert.ReferenceIdeal.Read.val_main_v35_eq, Cert.CellRef.refC_eq, a0, a1, a2, a3, a4, a5, a6, a7]
  · rw [Cert.ReferenceIdeal.Read.val_main_v43_eq, Cert.CellRef.refR_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
